-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S200000x3 : Shape := ⟨2, ![200000, 3]⟩
abbrev S100 : Shape := ⟨1, ![100]⟩
abbrev S200000 : Shape := ⟨1, ![200000]⟩
abbrev S200000x64 : Shape := ⟨2, ![200000, 64]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S200000x3 : S_.BroadcastsInDim S200000x3 (![] : Fin 0 → Fin S200000x3.rank)
  reducesTo_S200000x3_S_d0_1 : S200000x3.ReducesTo [0, 1] S_
  bcast_S_S100 : S_.BroadcastsInDim S100 (![] : Fin 0 → Fin S100.rank)
  reducesTo_S100_S_d0 : S100.ReducesTo [0] S_

variable [Facts]

def fn {F : FTy → Type} [FloatOps F] (main_arg0 : FVec F S200000x2 .f32) (main_arg1 : FVec F S200000x3 .f32) (main_arg2 : FVec F S100 .f32) (main_arg3 : IVec S200000 32) (main_arg4 : IVec S200000x64 32) (main_arg5 : IVec S200000x64 1) (main_arg6 : IVec S200000 32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S200000x3 .f32 := Host.absf main_arg1
  let main_cst_0 : FVec F S_ .f32 := constant S_ .f32 0x7F800000#32
  let main_v5 : FVec F S200000x3 .f32 := broadcastInDim S200000x3 ![] bcast_S_S200000x3 main_cst_0
  let main_v6 : IVec S200000x3 1 := cmpf .olt main_v4 main_v5
  let main_c_1 : IVec S_ 1 := constantI S_ 1 1#1
  let main_v7 : IVec S_ 1 := (fun x v => Host.reduce IntOp.andi x v reducesTo_S200000x3_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  main_v13
-- ==== Kernel.lean ====
abbrev S200000x2 : Shape := ⟨2, ![200000, 2]⟩
abbrev S200000x3 : Shape := ⟨2, ![200000, 3]⟩
abbrev S100 : Shape := ⟨1, ![100]⟩
abbrev S200000 : Shape := ⟨1, ![200000]⟩
abbrev S200000x64 : Shape := ⟨2, ![200000, 64]⟩
abbrev S200000x1 : Shape := ⟨2, ![200000, 1]⟩
abbrev S_ : Shape := ⟨0, ![]⟩
abbrev S200000x64x1 : Shape := ⟨3, ![200000, 64, 1]⟩
abbrev S200000x6 : Shape := ⟨2, ![200000, 6]⟩
abbrev S2000x6 : Shape := ⟨2, ![2000, 6]⟩
abbrev S2000x64 : Shape := ⟨2, ![2000, 64]⟩
abbrev S2000x1 : Shape := ⟨2, ![2000, 1]⟩
abbrev S2000 : Shape := ⟨1, ![2000]⟩

abbrev nBuf : Space → Nat
  | .hbm => 103
  | .vmem => 18
  | .smem => 0
  | _ => 0

abbrev bufTy : (tb : Table) → Fin (tcTables nBuf tb) → BufTy
  | .hbm, ⟨0, _⟩ => ⟨S200000x2, .f32⟩
  | .hbm, ⟨1, _⟩ => ⟨S200000x3, .f32⟩
  | .hbm, ⟨2, _⟩ => ⟨S100, .f32⟩
  | .hbm, ⟨3, _⟩ => ⟨S200000, .i32⟩
  | .hbm, ⟨4, _⟩ => ⟨S200000x64, .i32⟩
  | .hbm, ⟨5, _⟩ => ⟨S200000x64, .i1⟩
  | .hbm, ⟨6, _⟩ => ⟨S200000, .i32⟩
  | .hbm, ⟨7, _⟩ => ⟨S200000x1, .f32⟩
  | .hbm, ⟨8, _⟩ => ⟨S200000, .f32⟩
  | .hbm, ⟨9, _⟩ => ⟨S200000x1, .f32⟩
  | .hbm, ⟨10, _⟩ => ⟨S200000, .f32⟩
  | .hbm, ⟨11, _⟩ => ⟨S_, .i32⟩
  | .hbm, ⟨12, _⟩ => ⟨S200000, .i32⟩
  | .hbm, ⟨13, _⟩ => ⟨S200000, .i1⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S200000, .i32⟩
  | .hbm, ⟨18, _⟩ => ⟨S200000x1, .i32⟩
  | .hbm, ⟨19, _⟩ => ⟨S200000, .f32⟩
  | .hbm, ⟨20, _⟩ => ⟨S_, .i32⟩
  | .hbm, ⟨21, _⟩ => ⟨S200000x64, .i32⟩
  | .hbm, ⟨22, _⟩ => ⟨S200000x64, .i1⟩
  | .hbm, ⟨23, _⟩ => ⟨S_, .i32⟩
  | .hbm, ⟨24, _⟩ => ⟨S200000x64, .i32⟩
  | .hbm, ⟨25, _⟩ => ⟨S200000x64, .i32⟩
  | .hbm, ⟨26, _⟩ => ⟨S200000x64, .i32⟩
  | .hbm, ⟨27, _⟩ => ⟨S200000x64x1, .i32⟩
  | .hbm, ⟨28, _⟩ => ⟨S200000x64, .f32⟩
  | .hbm, ⟨29, _⟩ => ⟨S_, .i32⟩
  | .hbm, ⟨30, _⟩ => ⟨S200000x64, .i32⟩
  | .hbm, ⟨31, _⟩ => ⟨S200000x64, .i1⟩
  | .hbm, ⟨32, _⟩ => ⟨S_, .i32⟩
  | .hbm, ⟨33, _⟩ => ⟨S200000x64, .i32⟩
  | .hbm, ⟨34, _⟩ => ⟨S200000x64, .i32⟩
  | .hbm, ⟨35, _⟩ => ⟨S200000x64, .i32⟩
  | .hbm, ⟨36, _⟩ => ⟨S200000x64x1, .i32⟩
  | .hbm, ⟨37, _⟩ => ⟨S200000x64, .f32⟩
  | .hbm, ⟨38, _⟩ => ⟨S_, .i32⟩
  | .hbm, ⟨39, _⟩ => ⟨S200000x64, .i32⟩
  | .hbm, ⟨40, _⟩ => ⟨S200000x64, .i1⟩
  | .hbm, ⟨41, _⟩ => ⟨S_, .i32⟩
  | .hbm, ⟨42, _⟩ => ⟨S200000x64, .i32⟩
  | .hbm, ⟨43, _⟩ => ⟨S200000x64, .i32⟩
  | .hbm, ⟨44, _⟩ => ⟨S200000x64, .i32⟩
  | .hbm, ⟨45, _⟩ => ⟨S200000x64x1, .i32⟩
  | .hbm, ⟨46, _⟩ => ⟨S200000x64, .f32⟩
  | .hbm, ⟨47, _⟩ => ⟨S200000x1, .f32⟩
  | .hbm, ⟨48, _⟩ => ⟨S200000, .f32⟩
  | .hbm, ⟨49, _⟩ => ⟨S_, .i32⟩
  | .hbm, ⟨50, _⟩ => ⟨S200000x64, .i32⟩
  | .hbm, ⟨51, _⟩ => ⟨S200000x64, .i1⟩
  | .hbm, ⟨52, _⟩ => ⟨S_, .i32⟩
  | .hbm, ⟨53, _⟩ => ⟨S200000x64, .i32⟩
  | .hbm, ⟨54, _⟩ => ⟨S200000x64, .i32⟩
  | .hbm, ⟨55, _⟩ => ⟨S200000x64, .i32⟩
  | .hbm, ⟨56, _⟩ => ⟨S200000x64x1, .i32⟩
  | .hbm, ⟨57, _⟩ => ⟨S200000x64, .f32⟩
  | .hbm, ⟨58, _⟩ => ⟨S200000x1, .f32⟩
  | .hbm, ⟨59, _⟩ => ⟨S200000, .f32⟩
  | .hbm, ⟨60, _⟩ => ⟨S_, .i32⟩
  | .hbm, ⟨61, _⟩ => ⟨S200000x64, .i32⟩
  | .hbm, ⟨62, _⟩ => ⟨S200000x64, .i1⟩
  | .hbm, ⟨63, _⟩ => ⟨S_, .i32⟩
  | .hbm, ⟨64, _⟩ => ⟨S200000x64, .i32⟩
  | .hbm, ⟨65, _⟩ => ⟨S200000x64, .i32⟩
  | .hbm, ⟨66, _⟩ => ⟨S200000x64, .i32⟩
  | .hbm, ⟨67, _⟩ => ⟨S200000x64x1, .i32⟩
  | .hbm, ⟨68, _⟩ => ⟨S200000x64, .f32⟩
  | .hbm, ⟨69, _⟩ => ⟨S200000x1, .f32⟩
  | .hbm, ⟨70, _⟩ => ⟨S200000, .f32⟩
  | .hbm, ⟨71, _⟩ => ⟨S_, .i32⟩
  | .hbm, ⟨72, _⟩ => ⟨S200000x64, .i32⟩
  | .hbm, ⟨73, _⟩ => ⟨S200000x64, .i1⟩
  | .hbm, ⟨74, _⟩ => ⟨S_, .i32⟩
  | .hbm, ⟨75, _⟩ => ⟨S200000x64, .i32⟩
  | .hbm, ⟨76, _⟩ => ⟨S200000x64, .i32⟩
  | .hbm, ⟨77, _⟩ => ⟨S200000x64, .i32⟩
  | .hbm, ⟨78, _⟩ => ⟨S200000x64x1, .i32⟩
  | .hbm, ⟨79, _⟩ => ⟨S200000x64, .f32⟩
  | .hbm, ⟨80, _⟩ => ⟨S200000x1, .f32⟩
  | .hbm, ⟨81, _⟩ => ⟨S200000, .f32⟩
  | .hbm, ⟨82, _⟩ => ⟨S200000x1, .f32⟩
  | .hbm, ⟨83, _⟩ => ⟨S200000, .f32⟩
  | .hbm, ⟨84, _⟩ => ⟨S200000x1, .f32⟩
  | .hbm, ⟨85, _⟩ => ⟨S200000, .f32⟩
  | .hbm, ⟨86, _⟩ => ⟨S200000x1, .f32⟩
  | .hbm, ⟨87, _⟩ => ⟨S200000x1, .f32⟩
  | .hbm, ⟨88, _⟩ => ⟨S200000x1, .f32⟩
  | .hbm, ⟨89, _⟩ => ⟨S200000x1, .f32⟩
  | .hbm, ⟨90, _⟩ => ⟨S200000x1, .f32⟩
  | .hbm, ⟨91, _⟩ => ⟨S200000x1, .f32⟩
  | .hbm, ⟨92, _⟩ => ⟨S200000x6, .f32⟩
  | .hbm, ⟨93, _⟩ => ⟨S200000x64, .i32⟩
  | .hbm, ⟨94, _⟩ => ⟨S200000x1, .f32⟩
  | .hbm, ⟨95, _⟩ => ⟨S200000, .f32⟩
  | .hbm, ⟨96, _⟩ => ⟨S_, .f32⟩
  | .hbm, ⟨97, _⟩ => ⟨S2000, .f32⟩
  | .hbm, ⟨98, _⟩ => ⟨S200000x1, .i32⟩
  | .hbm, ⟨99, _⟩ => ⟨S2000, .f32⟩
  | .hbm, ⟨100, _⟩ => ⟨S_, .f32⟩
  | .hbm, ⟨101, _⟩ => ⟨S2000, .f32⟩
  | .hbm, ⟨102, _⟩ => ⟨S2000, .f32⟩
  | .local _ .vmem, ⟨0, _⟩ => ⟨S2000x6, .f32⟩
  | .local _ .vmem, ⟨1, _⟩ => ⟨S2000x6, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .i32⟩
  | .local _ .vmem, ⟨15, _⟩ => ⟨S2000x64, .i32⟩
  | .local _ .vmem, ⟨16, _⟩ => ⟨S2000x1, .f32⟩
  | .local _ .vmem, ⟨17, _⟩ => ⟨S2000x1, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x64 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  bcast_S_S200000x64 : S_.BroadcastsInDim S200000x64 (![] : Fin 0 → Fin S200000x64.rank)
  bcast_S200000x64_S200000x64x1_0_1 : S200000x64.BroadcastsInDim S200000x64x1 (![0, 1] : Fin 2 → Fin S200000x64x1.rank)
  slices_S200000x3_S200000x1_0_0 : S200000x3.Slices ![0, 0] S200000x1
  slices_S200000x3_S200000x1_0_1 : S200000x3.Slices ![0, 1] S200000x1
  slices_S200000x3_S200000x1_0_2 : S200000x3.Slices ![0, 2] S200000x1
  concatenates_S200000x1_S200000x1_S200000x1_S200000x1_S200000x1_S200000x1_S200000x6_d1 : Shape.Concatenates [S200000x1, S200000x1, S200000x1, S200000x1, S200000x1, S200000x1] S200000x6 1
  natLt_1_32 : 1 < 32
  inb_S2000x6_S2000x1_0_0 : ∀ a, (![0, 0] : Fin 2 → Nat) a + S2000x1.size a ≤ S2000x6.size a
  h_S2000x1 : 0 < S2000x1.numel
  shapeCasts_S2000x1_S2000x1 : S2000x1.ShapeCasts S2000x1
  inb_S2000x6_S2000x1_0_1 : ∀ a, (![0, 1] : Fin 2 → Nat) a + S2000x1.size a ≤ S2000x6.size a
  inb_S2000x6_S2000x1_0_2 : ∀ a, (![0, 2] : Fin 2 → Nat) a + S2000x1.size a ≤ S2000x6.size a
  inb_S2000x6_S2000x1_0_3 : ∀ a, (![0, 3] : Fin 2 → Nat) a + S2000x1.size a ≤ S2000x6.size a
  inb_S2000x6_S2000x1_0_4 : ∀ a, (![0, 4] : Fin 2 → Nat) a + S2000x1.size a ≤ S2000x6.size a
  inb_S2000x6_S2000x1_0_5 : ∀ a, (![0, 5] : Fin 2 → Nat) a + S2000x1.size a ≤ S2000x6.size a
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  reduces_S2000x64_S2000 : S2000x64.Reduces [1] S2000
  shapeCasts_S2000_S2000x1 : S2000.ShapeCasts S2000x1
  inb_S2000x1_S2000x1_0_0 : ∀ a, (![0, 0] : Fin 2 → Nat) a + S2000x1.size a ≤ S2000x1.size a
  bcast_S_S2000 : S_.BroadcastsInDim S2000 (![] : Fin 0 → Fin S2000.rank)
  gather_S100_S200000x1_S200000_n_0_n_n_0_1_1_wf : GatherDims.WF S100 S200000x1 S200000 [] [0] [] [0] [] 1 ![1]
  gather_S200000_S200000x64x1_S200000x64_n_0_n_n_0_2_1_wf : GatherDims.WF S200000 S200000x64x1 S200000x64 [] [0] [] [0] [] 2 ![1]
  scatter_S2000_S200000x1_S200000_n_0_0_1_wf : ScatterDims.WF S2000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6.size a ≤ S200000x6.size a
  hwx0_0 : ∀ i : grid0.Coords, EltTy.bits .f32 = 32 ∨ (Rect.block (s := S200000x6) S2000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S200000x64.size a
  hwx0_1 : ∀ i : grid0.Coords, EltTy.bits .f32 = 32 ∨ (Rect.block (s := S200000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S200000x64.size a
  hwx0_2 : ∀ i : grid0.Coords, EltTy.bits .f32 = 32 ∨ (Rect.block (s := S200000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S200000x64.size a
  hwx0_3 : ∀ i : grid0.Coords, EltTy.bits .f32 = 32 ∨ (Rect.block (s := S200000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S200000x64.size a
  hwx0_4 : ∀ i : grid0.Coords, EltTy.bits .f32 = 32 ∨ (Rect.block (s := S200000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S200000x64.size a
  hwx0_5 : ∀ i : grid0.Coords, EltTy.bits .f32 = 32 ∨ (Rect.block (s := S200000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S200000x64.size a
  hwx0_6 : ∀ i : grid0.Coords, EltTy.bits .f32 = 32 ∨ (Rect.block (s := S200000x64) S2000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S200000x64.size a
  hwx0_7 : ∀ i : grid0.Coords, EltTy.bits .i32 = 32 ∨ (Rect.block (s := S200000x64) S2000x64.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S200000x1.size a
  hwx0_8 : ∀ i : grid0.Coords, EltTy.bits .f32 = 32 ∨ (Rect.block (s := S200000x1) S2000x1.size (cc0_transform_8 i) (hinb0_8 i)).WholeWords (EltTy.packing .f32)

variable [Facts₀]

def gather_S100_S200000x1_S200000_n_0_n_n_0_1_1 : GatherDims S100 S200000x1 S200000 where
  offsetDims := []
  collapsedSliceDims := [0]
  operandBatchingDims := []
  startIndicesBatchingDims := []
  startIndexMap := [0]
  indexVectorDim := 1
  sliceSizes := ![1]
  wf := gather_S100_S200000x1_S200000_n_0_n_n_0_1_1_wf
def gather_S200000_S200000x64x1_S200000x64_n_0_n_n_0_2_1 : GatherDims S200000 S200000x64x1 S200000x64 where
  offsetDims := []
  collapsedSliceDims := [0]
  operandBatchingDims := []
  startIndicesBatchingDims := []
  startIndexMap := [0]
  indexVectorDim := 2
  sliceSizes := ![1]
  wf := gather_S200000_S200000x64x1_S200000x64_n_0_n_n_0_2_1_wf
def scatter_S2000_S200000x1_S200000_n_0_0_1 : ScatterDims S2000 S200000x1 S200000 where
  updateWindowDims := []
  insertedWindowDims := [0]
  scatterDimsToOperandDims := [0]
  indexVectorDim := 1
  wf := scatter_S2000_S200000x1_S200000_n_0_0_1_wf

abbrev win0_0 : Pipeline.Window sig grid0 :=
  Pipeline.Window.ofSpec (Memref.whole main_v71) S2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49) S2000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v58) S2000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v72) S2000x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v73) S2000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x2 : Shape := ⟨2, ![200000, 2]⟩
abbrev S200000x3 : Shape := ⟨2, ![200000, 3]⟩
abbrev S100 : Shape := ⟨1, ![100]⟩
abbrev S200000 : Shape := ⟨1, ![200000]⟩
abbrev S200000x64 : Shape := ⟨2, ![200000, 64]⟩
abbrev S200000x1 : Shape := ⟨2, ![200000, 1]⟩
abbrev S_ : Shape := ⟨0, ![]⟩
abbrev S200000x64x1 : Shape := ⟨3, ![200000, 64, 1]⟩
abbrev S200000x1x3 : Shape := ⟨3, ![200000, 1, 3]⟩
abbrev S200000x64x3 : Shape := ⟨3, ![200000, 64, 3]⟩
abbrev S2000 : Shape := ⟨1, ![2000]⟩

abbrev nBuf : Space → Nat
  | .hbm => 138
  | .vmem => 0
  | .smem => 0
  | _ => 0

abbrev hbmTy0_0 (i : Nat) : BufTy := match i % 128 with
  | 0 => ⟨S200000x2, .f32⟩
  | 1 => ⟨S200000x3, .f32⟩
  | 2 => ⟨S100, .f32⟩
  | 3 => ⟨S200000, .i32⟩
  | 4 => ⟨S200000x64, .i32⟩
  | 5 => ⟨S200000x64, .i1⟩
  | 6 => ⟨S200000, .i32⟩
  | 7 => ⟨S200000x1, .f32⟩
  | 8 => ⟨S200000, .f32⟩
  | 9 => ⟨S200000x1, .f32⟩
  | 10 => ⟨S200000, .f32⟩
  | 11 => ⟨S200000x1, .f32⟩
  | 12 => ⟨S200000x1, .f32⟩
  | 13 => ⟨S_, .i32⟩
  | 14 => ⟨S200000x64, .i32⟩
  | 15 => ⟨S200000x64, .i1⟩
  | 16 => ⟨S_, .i32⟩
  | 17 => ⟨S200000x64, .i32⟩
  | 18 => ⟨S200000x64, .i32⟩
  | 19 => ⟨S200000x64, .i32⟩
  | 20 => ⟨S200000x64x1, .i32⟩
  | 21 => ⟨S200000x64, .f32⟩
  | 22 => ⟨S_, .i32⟩
  | 23 => ⟨S200000x64, .i32⟩
  | 24 => ⟨S200000x64, .i1⟩
  | 25 => ⟨S_, .i32⟩
  | 26 => ⟨S200000x64, .i32⟩
  | 27 => ⟨S200000x64, .i32⟩
  | 28 => ⟨S200000x64, .i32⟩
  | 29 => ⟨S200000x64x1, .i32⟩
  | 30 => ⟨S200000x64, .f32⟩
  | 31 => ⟨S200000x64, .f32⟩
  | 32 => ⟨S200000x64, .f32⟩
  | 33 => ⟨S200000x64, .f32⟩
  | 34 => ⟨S200000x64, .f32⟩
  | 35 => ⟨S200000x64, .f32⟩
  | 36 => ⟨S200000x64, .f32⟩
  | 37 => ⟨S200000x64, .f32⟩
  | 38 => ⟨S200000x64, .f32⟩
  | 39 => ⟨S_, .f32⟩
  | 40 => ⟨S_, .f32⟩
  | 41 => ⟨S200000x64, .f32⟩
  | 42 => ⟨S200000x64, .f32⟩
  | 43 => ⟨S_, .f32⟩
  | 44 => ⟨S200000x1, .f32⟩
  | 45 => ⟨S200000x1, .f32⟩
  | 46 => ⟨S200000x64, .f32⟩
  | 47 => ⟨S200000x64, .f32⟩
  | 48 => ⟨S200000x64, .f32⟩
  | 49 => ⟨S_, .f32⟩
  | 50 => ⟨S_, .f32⟩
  | 51 => ⟨S200000x64, .f32⟩
  | 52 => ⟨S200000x64, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000, .f32⟩
  | 62 => ⟨S200000x1, .f32⟩
  | 63 => ⟨S_, .f32⟩
  | 64 => ⟨S200000x1, .f32⟩
  | 65 => ⟨S200000x1, .f32⟩
  | 66 => ⟨S_, .i32⟩
  | 67 => ⟨S200000x64, .i32⟩
  | 68 => ⟨S200000x64, .i1⟩
  | 69 => ⟨S_, .i32⟩
  | 70 => ⟨S200000x64, .i32⟩
  | 71 => ⟨S200000x64, .i32⟩
  | 72 => ⟨S200000x64, .i32⟩
  | 73 => ⟨S200000x64x1, .i32⟩
  | 74 => ⟨S200000x64, .f32⟩
  | 75 => ⟨S200000x64, .f32⟩
  | 76 => ⟨S200000x64, .f32⟩
  | 77 => ⟨S_, .f32⟩
  | 78 => ⟨S_, .f32⟩
  | 79 => ⟨S200000x64, .f32⟩
  | 80 => ⟨S200000x64, .f32⟩
  | 81 => ⟨S200000x64, .f32⟩
  | 82 => ⟨S_, .f32⟩
  | 83 => ⟨S200000x64, .f32⟩
  | 84 => ⟨S200000x64, .f32⟩
  | 85 => ⟨S_, .f32⟩
  | 86 => ⟨S200000x64, .f32⟩
  | 87 => ⟨S200000x64, .f32⟩
  | 88 => ⟨S200000x1x3, .f32⟩
  | 89 => ⟨S_, .i32⟩
  | 90 => ⟨S200000x64, .i32⟩
  | 91 => ⟨S200000x64, .i1⟩
  | 92 => ⟨S_, .i32⟩
  | 93 => ⟨S200000x64, .i32⟩
  | 94 => ⟨S200000x64, .i32⟩
  | 95 => ⟨S200000x64, .i32⟩
  | 96 => ⟨S200000x64x1, .i32⟩
  | 97 => ⟨S200000x64x3, .f32⟩
  | 98 => ⟨S200000x64x3, .f32⟩
  | 99 => ⟨S200000x64x3, .f32⟩
  | 100 => ⟨S200000x64x3, .f32⟩
  | 101 => ⟨S_, .f32⟩
  | 102 => ⟨S200000x64, .f32⟩
  | 103 => ⟨S200000x64, .f32⟩
  | 104 => ⟨S_, .f32⟩
  | 105 => ⟨S200000x64, .f32⟩
  | 106 => ⟨S200000x64, .f32⟩
  | 107 => ⟨S200000x64, .f32⟩
  | 108 => ⟨S200000x64, .f32⟩
  | 109 => ⟨S200000x64, .f32⟩
  | 110 => ⟨S200000x64, .f32⟩
  | 111 => ⟨S200000x64, .f32⟩
  | 112 => ⟨S200000x64, .f32⟩
  | 113 => ⟨S200000x64, .f32⟩
  | 114 => ⟨S200000x64, .f32⟩
  | 115 => ⟨S200000x64, .f32⟩
  | 116 => ⟨S_, .f32⟩
  | 117 => ⟨S200000x64, .f32⟩
  | 118 => ⟨S200000x64, .f32⟩
  | 119 => ⟨S_, .f32⟩
  | 120 => ⟨S200000x64, .f32⟩
  | 121 => ⟨S200000x64, .f32⟩
  | 122 => ⟨S200000x64, .f32⟩
  | 123 => ⟨S200000x64, .f32⟩
  | 124 => ⟨S200000x64, .f32⟩
  | 125 => ⟨S200000x64, .f32⟩
  | 126 => ⟨S200000x64, .f32⟩
  | 127 => ⟨S200000x64, .f32⟩
  | _ => ⟨S200000x2, .f32⟩

abbrev hbmTy0_1 (i : Nat) : BufTy := match i % 128 with
  | 0 => ⟨S200000x64, .f32⟩
  | 1 => ⟨S_, .f32⟩
  | 2 => ⟨S200000, .f32⟩
  | 3 => ⟨S_, .f32⟩
  | 4 => ⟨S2000, .f32⟩
  | 5 => ⟨S200000x1, .i32⟩
  | 6 => ⟨S2000, .f32⟩
  | 7 => ⟨S_, .f32⟩
  | 8 => ⟨S2000, .f32⟩
  | 9 => ⟨S2000, .f32⟩
  | _ => ⟨S200000x2, .f32⟩

abbrev hbmTy (i : Nat) : BufTy := match i / 128 with
  | 0 => hbmTy0_0 i
  | 1 => hbmTy0_1 i
  | _ => ⟨S200000x2, .f32⟩

abbrev bufTy : (tb : Table) → Fin (tcTables nBuf tb) → BufTy
  | .hbm, ⟨i, _⟩ => hbmTy i
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_call2_v0 : Ref sig .tc := ⟨.hbm, 78, rfl⟩
abbrev main_call2_v1 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S200000_S200000x1_0 : S200000.BroadcastsInDim S200000x1 (![0] : Fin 1 → Fin S200000x1.rank)
  bcast_S_S200000x64 : S_.BroadcastsInDim S200000x64 (![] : Fin 0 → Fin S200000x64.rank)
  bcast_S200000x64_S200000x64x1_0_1 : S200000x64.BroadcastsInDim S200000x64x1 (![0, 1] : Fin 2 → Fin S200000x64x1.rank)
  bcast_S200000x1_S200000x64_0_1 : S200000x1.BroadcastsInDim S200000x64 (![0, 1] : Fin 2 → Fin S200000x64.rank)
  bcast_S_S200000x1 : S_.BroadcastsInDim S200000x1 (![] : Fin 0 → Fin S200000x1.rank)
  bcast_S_S200000 : S_.BroadcastsInDim S200000 (![] : Fin 0 → Fin S200000.rank)
  bcast_S200000x3_S200000x1x3_0_2 : S200000x3.BroadcastsInDim S200000x1x3 (![0, 2] : Fin 2 → Fin S200000x1x3.rank)
  bcast_S200000x1x3_S200000x64x3_0_1_2 : S200000x1x3.BroadcastsInDim S200000x64x3 (![0, 1, 2] : Fin 3 → Fin S200000x64x3.rank)
  reducesTo_S200000x64x3_S200000x64_d2 : S200000x64x3.ReducesTo [2] S200000x64
  h_S_ : 0 < S_.numel
  reducesTo_S200000x64_S200000_d1 : S200000x64.ReducesTo [1] S200000
  bcast_S_S2000 : S_.BroadcastsInDim S2000 (![] : Fin 0 → Fin S2000.rank)
  gather_S200000_S200000x64x1_S200000x64_n_0_n_n_0_2_1_wf : GatherDims.WF S200000 S200000x64x1 S200000x64 [] [0] [] [0] [] 2 ![1]
  gather_S100_S200000x1_S200000_n_0_n_n_0_1_1_wf : GatherDims.WF S100 S200000x1 S200000 [] [0] [] [0] [] 1 ![1]
  gather_S200000x3_S200000x64x1_S200000x64x3_2_0_n_n_0_2_13_wf : GatherDims.WF S200000x3 S200000x64x1 S200000x64x3 [2] [0] [] [0] [] 2 ![1, 3]
  scatter_S2000_S200000x1_S200000_n_0_0_1_wf : ScatterDims.WF S2000 S200000x1 S200000 [] [0] [0] 1

variable [Facts₀]

def gather_S200000_S200000x64x1_S200000x64_n_0_n_n_0_2_1 : GatherDims S200000 S200000x64x1 S200000x64 where
  offsetDims := []
  collapsedSliceDims := [0]
  operandBatchingDims := []
  startIndicesBatchingDims := []
  startIndexMap := [0]
  indexVectorDim := 2
  sliceSizes := ![1]
  wf := gather_S200000_S200000x64x1_S200000x64_n_0_n_n_0_2_1_wf
def gather_S100_S200000x1_S200000_n_0_n_n_0_1_1 : GatherDims S100 S200000x1 S200000 where
  offsetDims := []
  collapsedSliceDims := [0]
  operandBatchingDims := []
  startIndicesBatchingDims := []
  startIndexMap := [0]
  indexVectorDim := 1
  sliceSizes := ![1]
  wf := gather_S100_S200000x1_S200000_n_0_n_n_0_1_1_wf
def gather_S200000x3_S200000x64x1_S200000x64x3_2_0_n_n_0_2_13 : GatherDims S200000x3 S200000x64x1 S200000x64x3 where
  offsetDims := [2]
  collapsedSliceDims := [0]
  operandBatchingDims := []
  startIndicesBatchingDims := []
  startIndexMap := [0]
  indexVectorDim := 2
  sliceSizes := ![1, 3]
  wf := gather_S200000x3_S200000x64x1_S200000x64x3_2_0_n_n_0_2_13_wf
def scatter_S2000_S200000x1_S200000_n_0_0_1 : ScatterDims S2000 S200000x1 S200000 where
  updateWindowDims := []
  insertedWindowDims := [0]
  scatterDimsToOperandDims := [0]
  indexVectorDim := 1
  wf := scatter_S2000_S200000x1_S200000_n_0_0_1_wf

class Facts : Prop extends Facts₀ where

variable [Facts]
-- ==== Proof.StoredK.lean ====
/-
  The one value the body of the kernel stores at a grid point, as a function of its eight input blocks.

  The body reads six one-column pieces of the own-atom block [2000, 6] (c6, alpha, r4r2, x, y, z of the block's
  atoms), the six neighbour blocks [2000, 64] (the same quantities gathered at the neighbour matrix) and the mask
  block, computes the 2000 × 64 pair terms and sums each row over its 64 neighbours; the result, one column of
  2000 per-atom energies, is stored over the whole output block. Here that value is written through the body's
  named payloads, and the output buffer after the body is that value laid over the whole column.
-/
import proofs.«106823_j18580028522577_2_alg».proof.Proof.Gen.Kernel.Skeleton
import Idealize.ShloMosaic.Lib.Pipeline.FrameBody

set_option maxRecDepth 16384

noncomputable section

namespace Cert.Kernel.Hand

open Cert.Kernel Cert.Kernel.Gen
open Idealize.ShloMosaic Idealize.SL.Sem

variable {F : FTy → Type} [FloatOps F]

/-- The six one-column rectangles of the own-atom block, the whole rectangle of a neighbour block, and the whole
    output column. -/
abbrev rcol0 : Rect S2000x6 := Rect.unit (s := S2000x6) ![0, 0] S2000x1.size inb_S2000x6_S2000x1_0_0
abbrev rcol1 : Rect S2000x6 := Rect.unit (s := S2000x6) ![0, 1] S2000x1.size inb_S2000x6_S2000x1_0_1
abbrev rcol2 : Rect S2000x6 := Rect.unit (s := S2000x6) ![0, 2] S2000x1.size inb_S2000x6_S2000x1_0_2
abbrev rcol3 : Rect S2000x6 := Rect.unit (s := S2000x6) ![0, 3] S2000x1.size inb_S2000x6_S2000x1_0_3
abbrev rcol4 : Rect S2000x6 := Rect.unit (s := S2000x6) ![0, 4] S2000x1.size inb_S2000x6_S2000x1_0_4
abbrev rcol5 : Rect S2000x6 := Rect.unit (s := S2000x6) ![0, 5] S2000x1.size inb_S2000x6_S2000x1_0_5
abbrev rwide : Rect S2000x64 := Rect.unit (s := S2000x64) ![0, 0] S2000x64.size inb_S2000x64_S2000x64_0_0
abbrev rout : Rect S2000x1 := Rect.unit (s := S2000x1) ![0, 0] S2000x1.size inb_S2000x1_S2000x1_0_0

/-- The per-atom energies of the block's 2000 atoms from the eight input blocks. -/
def stored (x0 : Vec F S2000x6 .f32) (x1 x2 x3 x4 x5 x6 : Vec F S2000x64 .f32) (x7 : Vec F S2000x64 .i32) : FVec F S2000x1 .f32 :=
  k0_pay1
    (k0_pay17 (k0_pay2 (View.ld x0 rcol0)) (k0_pay8 (View.ld x1 rwide)) (k0_pay9 (View.ld x2 rwide)) (k0_pay14 (View.ld x7 rwide)) (k0_pay15 (View.ld x0 rcol0) (View.ld x0 rcol1) (View.ld x2 rwide)) (k0_pay16 (View.ld x0 rcol1) (View.ld x1 rwide)))
    (k0_pay18 (k0_pay4 (View.ld x0 rcol2)) (k0_pay10 (View.ld x3 rwide)) (k0_pay14 (View.ld x7 rwide)))
    (k0_pay22 (k0_pay5 (View.ld x0 rcol3)) (k0_pay6 (View.ld x0 rcol4)) (k0_pay7 (View.ld x0 rcol5)) (k0_pay11 (View.ld x4 rwide)) (k0_pay12 (View.ld x5 rwide)) (k0_pay13 (View.ld x6 rwide)))
    (k0_pay24 (k0_pay4 (View.ld x0 rcol2)) (k0_pay10 (View.ld x3 rwide)) (k0_pay14 (View.ld x7 rwide)))
    (k0_pay25 (k0_pay4 (View.ld x0 rcol2)) (k0_pay5 (View.ld x0 rcol3)) (k0_pay6 (View.ld x0 rcol4)) (k0_pay7 (View.ld x0 rcol5)) (k0_pay10 (View.ld x3 rwide)) (k0_pay11 (View.ld x4 rwide)) (k0_pay12 (View.ld x5 rwide)) (k0_pay13 (View.ld x6 rwide)) (k0_pay14 (View.ld x7 rwide)))
    (k0_pay26 (F := F))

/-- The output's staging buffer after the body: that value, stored over the whole column. -/
def outCol (x0 : Vec F S2000x6 .f32) (x1 x2 x3 x4 x5 x6 : Vec F S2000x64 .f32) (x7 : Vec F S2000x64 .i32) : Vec F S2000x1 .f32 :=
  View.canon [⟨rout, stored x0 x1 x2 x3 x4 x5 x6 x7⟩]

/-- The one store covers the buffer. -/
theorem cover_out (p0 : Vec F S2000x1 .f32) (y : S2000x1.Idx) :
    ∃ pc ∈ ([⟨rout, p0⟩] : List (View.Piece (Elt F) S2000x1 .f32)), y ∈ pc.1.set :=
  View.cover_of_tiled [⟨rout, p0⟩] S2000x1.size (by rfl) y

end Cert.Kernel.Hand

end
-- ==== Proof.RunK.lean ====
/-
  The run of the kernel as printed, read at any float instance.

  The program is: a stretch of host lines that cut the per-atom columns c6, alpha out of the dispersion
  parameters and x, y, z out of the coordinates, look r4r2 up at the atomic numbers, gather each of the
  six per-atom quantities at the neighbour matrix, and lay the six own-atom columns side by side as one
  [N, 6] array; ONE region over 100 blocks of 2000 atoms, whose body reads the own-atom row block, the
  six gathered [2000, 64] blocks and the mask block, and stores one column of 2000 per-atom energies;
  and a stretch of host lines that adds the atoms' energies into their molecules and scales the sums.

  This module states what the arrays hold when the region is entered (the fold of the first stretch over
  the launch memory), what the body leaves in the output's staging buffer at a grid point as ONE function of
  the eight input blocks (the single store's value through the named payloads), and the run: every weakly
  fair execution ends, with the result array of the region at the blocks the body stored, every other
  buffer as the last stretch leaves it, and the seven argument arrays untouched (no host line writes one,
  and none is an array the region writes).
-/
import proofs.«106823_j18580028522577_2_alg».proof.Proof.Gen.Kernel.Launch
import proofs.«106823_j18580028522577_2_alg».proof.Proof.Gen.Kernel.Skeleton
import proofs.«106823_j18580028522577_2_alg».proof.Proof.Gen.Kernel.Points
import proofs.«106823_j18580028522577_2_alg».proof.Proof.StoredK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents when the region is entered: the launch memory after the first stretch of host lines. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- Neither stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the first stretch, the region, and the second stretch as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second stretch touches only the region's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's nine arrays: each of its lines writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`: rows 2000·t … 2000·t + 1999 of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every point. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every point. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block of the array at every point. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block of the array at every point. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block of the array at every point. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block of the array at every point. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as launched -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's triple -/

set_option maxHeartbeats 4000000 in
/-- On whole staging buffers — the eight inputs at contents `x·`, the output at anything — the body runs to its
    continuation with the inputs as they were and the output at `outCol` of them. -/
theorem sound_kernel (c : Dev nD) (E : Set ℕ) (i : grid0.Coords) (a0 : Memref sig .tc .vmem S2000x6 .f32) (h0 : a0.IsWhole) (a1 : Memref sig .tc .vmem S2000x64 .f32) (h1 : a1.IsWhole) (a2 : Memref sig .tc .vmem S2000x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S2000x64 .f32) (h6 : a6.IsWhole) (a7 : Memref sig .tc .vmem S2000x64 .i32) (h7 : a7.IsWhole) (a8 : Memref sig .tc .vmem S2000x1 .f32) (h8 : a8.IsWhole)
    (x0 : Vec F S2000x6 .f32) (x1 x2 x3 x4 x5 x6 : Vec F S2000x64 .f32) (x7 : Vec F S2000x64 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outCol x0 x1 x2 x3 x4 x5 x6 x7)) -∗ K ⟨⟩))
      ⊢ wp frame (wpE (defs₀ (F := F)) Variants.none c none) E (cc0__d3_kernel i a0 h0 a1 h1 a2 h2 a3 h3 a4 h4 a5 h5 a6 h6 a7 h7 a8 h8) K := by
  simp only [cc0__d3_kernel_eq_skeleton]; unfold cc0__d3_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-! ## The proof data of the region -/

/-- On core `c`: the arrays as the region finds them; after the body at point `t` each input's buffer still at its
    block and the output's at `outCol` of the eight input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outCol (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outCol (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; at the end each array of the region holds what the proof
    data says (the result array: the stored columns, block by block) and every other buffer what the second stretch
    leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.StoredKI.lean ====
/-
  The one value the body of the idealized kernel stores at a grid point, as a function of its eight input blocks.

  The body reads six one-column pieces of the own-atom block [2000, 6] (c6, alpha, r4r2, x, y, z of the block's
  atoms), the six neighbour blocks [2000, 64] (the same quantities gathered at the neighbour matrix) and the mask
  block, computes the 2000 × 64 pair terms and sums each row over its 64 neighbours; the result, one column of
  2000 per-atom energies, is stored over the whole output block. Here that value is written through the body's
  named payloads, and the output buffer after the body is that value laid over the whole column.
-/
import proofs.«106823_j18580028522577_2_alg».proof.Proof.Gen.KernelIdeal.Skeleton
import Idealize.ShloMosaic.Lib.Pipeline.FrameBody

set_option maxRecDepth 16384

noncomputable section

namespace Cert.KernelIdeal.Hand

open Cert.KernelIdeal Cert.KernelIdeal.Gen
open Idealize.ShloMosaic Idealize.SL.Sem

variable {F : FTy → Type} [FloatOps F]

/-- The six one-column rectangles of the own-atom block, the whole rectangle of a neighbour block, and the whole
    output column. -/
abbrev rcol0 : Rect S2000x6 := Rect.unit (s := S2000x6) ![0, 0] S2000x1.size inb_S2000x6_S2000x1_0_0
abbrev rcol1 : Rect S2000x6 := Rect.unit (s := S2000x6) ![0, 1] S2000x1.size inb_S2000x6_S2000x1_0_1
abbrev rcol2 : Rect S2000x6 := Rect.unit (s := S2000x6) ![0, 2] S2000x1.size inb_S2000x6_S2000x1_0_2
abbrev rcol3 : Rect S2000x6 := Rect.unit (s := S2000x6) ![0, 3] S2000x1.size inb_S2000x6_S2000x1_0_3
abbrev rcol4 : Rect S2000x6 := Rect.unit (s := S2000x6) ![0, 4] S2000x1.size inb_S2000x6_S2000x1_0_4
abbrev rcol5 : Rect S2000x6 := Rect.unit (s := S2000x6) ![0, 5] S2000x1.size inb_S2000x6_S2000x1_0_5
abbrev rwide : Rect S2000x64 := Rect.unit (s := S2000x64) ![0, 0] S2000x64.size inb_S2000x64_S2000x64_0_0
abbrev rout : Rect S2000x1 := Rect.unit (s := S2000x1) ![0, 0] S2000x1.size inb_S2000x1_S2000x1_0_0

/-- The per-atom energies of the block's 2000 atoms from the eight input blocks. -/
def stored (x0 : Vec F S2000x6 .f32) (x1 x2 x3 x4 x5 x6 : Vec F S2000x64 .f32) (x7 : Vec F S2000x64 .i32) : FVec F S2000x1 .f32 :=
  k0_pay1
    (k0_pay17 (k0_pay2 (View.ld x0 rcol0)) (k0_pay8 (View.ld x1 rwide)) (k0_pay9 (View.ld x2 rwide)) (k0_pay14 (View.ld x7 rwide)) (k0_pay15 (View.ld x0 rcol0) (View.ld x0 rcol1) (View.ld x2 rwide)) (k0_pay16 (View.ld x0 rcol1) (View.ld x1 rwide)))
    (k0_pay18 (k0_pay4 (View.ld x0 rcol2)) (k0_pay10 (View.ld x3 rwide)) (k0_pay14 (View.ld x7 rwide)))
    (k0_pay22 (k0_pay5 (View.ld x0 rcol3)) (k0_pay6 (View.ld x0 rcol4)) (k0_pay7 (View.ld x0 rcol5)) (k0_pay11 (View.ld x4 rwide)) (k0_pay12 (View.ld x5 rwide)) (k0_pay13 (View.ld x6 rwide)))
    (k0_pay24 (k0_pay4 (View.ld x0 rcol2)) (k0_pay10 (View.ld x3 rwide)) (k0_pay14 (View.ld x7 rwide)))
    (k0_pay25 (k0_pay4 (View.ld x0 rcol2)) (k0_pay5 (View.ld x0 rcol3)) (k0_pay6 (View.ld x0 rcol4)) (k0_pay7 (View.ld x0 rcol5)) (k0_pay10 (View.ld x3 rwide)) (k0_pay11 (View.ld x4 rwide)) (k0_pay12 (View.ld x5 rwide)) (k0_pay13 (View.ld x6 rwide)) (k0_pay14 (View.ld x7 rwide)))
    (k0_pay26 (F := F))

/-- The output's staging buffer after the body: that value, stored over the whole column. -/
def outCol (x0 : Vec F S2000x6 .f32) (x1 x2 x3 x4 x5 x6 : Vec F S2000x64 .f32) (x7 : Vec F S2000x64 .i32) : Vec F S2000x1 .f32 :=
  View.canon [⟨rout, stored x0 x1 x2 x3 x4 x5 x6 x7⟩]

/-- The one store covers the buffer. -/
theorem cover_out (p0 : Vec F S2000x1 .f32) (y : S2000x1.Idx) :
    ∃ pc ∈ ([⟨rout, p0⟩] : List (View.Piece (Elt F) S2000x1 .f32)), y ∈ pc.1.set :=
  View.cover_of_tiled [⟨rout, p0⟩] S2000x1.size (by rfl) y

end Cert.KernelIdeal.Hand

end
-- ==== Proof.RunKI.lean ====
/-
  The run of the idealized kernel, read at any float instance.

  The program is: a stretch of host lines that cut the per-atom columns c6, alpha out of the dispersion
  parameters and x, y, z out of the coordinates, look r4r2 up at the atomic numbers, gather each of the
  six per-atom quantities at the neighbour matrix, and lay the six own-atom columns side by side as one
  [N, 6] array; ONE region over 100 blocks of 2000 atoms, whose body reads the own-atom row block, the
  six gathered [2000, 64] blocks and the mask block, and stores one column of 2000 per-atom energies;
  and a stretch of host lines that adds the atoms' energies into their molecules and scales the sums.

  This module states what the arrays hold when the region is entered (the fold of the first stretch over
  the launch memory), what the body leaves in the output's staging buffer at a grid point as ONE function of
  the eight input blocks (the single store's value through the named payloads), and the run: every weakly
  fair execution ends, with the result array of the region at the blocks the body stored, every other
  buffer as the last stretch leaves it, and the seven argument arrays untouched (no host line writes one,
  and none is an array the region writes).
-/
import proofs.«106823_j18580028522577_2_alg».proof.Proof.Gen.KernelIdeal.Launch
import proofs.«106823_j18580028522577_2_alg».proof.Proof.Gen.KernelIdeal.Skeleton
import proofs.«106823_j18580028522577_2_alg».proof.Proof.Gen.KernelIdeal.Points
import proofs.«106823_j18580028522577_2_alg».proof.Proof.StoredKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents when the region is entered: the launch memory after the first stretch of host lines. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- Neither stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the first stretch, the region, and the second stretch as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second stretch touches only the region's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the region's nine arrays: each of its lines writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`: rows 2000·t … 2000·t + 1999 of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every point. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every point. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block of the array at every point. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block of the array at every point. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block of the array at every point. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block of the array at every point. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as launched -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's triple -/

set_option maxHeartbeats 4000000 in
/-- On whole staging buffers — the eight inputs at contents `x·`, the output at anything — the body runs to its
    continuation with the inputs as they were and the output at `outCol` of them. -/
theorem sound_kernel (c : Dev nD) (E : Set ℕ) (i : grid0.Coords) (a0 : Memref sig .tc .vmem S2000x6 .f32) (h0 : a0.IsWhole) (a1 : Memref sig .tc .vmem S2000x64 .f32) (h1 : a1.IsWhole) (a2 : Memref sig .tc .vmem S2000x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S2000x64 .f32) (h6 : a6.IsWhole) (a7 : Memref sig .tc .vmem S2000x64 .i32) (h7 : a7.IsWhole) (a8 : Memref sig .tc .vmem S2000x1 .f32) (h8 : a8.IsWhole)
    (x0 : Vec F S2000x6 .f32) (x1 x2 x3 x4 x5 x6 : Vec F S2000x64 .f32) (x7 : Vec F S2000x64 .i32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outCol x0 x1 x2 x3 x4 x5 x6 x7)) -∗ K ⟨⟩))
      ⊢ wp frame (wpE (defs₀ (F := F)) Variants.none c none) E (cc0__d3_kernel i a0 h0 a1 h1 a2 h2 a3 h3 a4 h4 a5 h5 a6 h6 a7 h7 a8 h8) K := by
  simp only [cc0__d3_kernel_eq_skeleton]; unfold cc0__d3_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-! ## The proof data of the region -/

/-- On core `c`: the arrays as the region finds them; after the body at point `t` each input's buffer still at its
    block and the output's at `outCol` of the eight input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outCol (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outCol (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; at the end each array of the region holds what the proof
    data says (the result array: the stored columns, block by block) and every other buffer what the second stretch
    leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.LibGatherRowsAt.lean ====
/-
  Rows of a matrix looked up at a rank-2 array of indices, read at an index.

  What `x[idx]` of a matrix `x : [N, D]` at an integer array `idx : [R, C]` lowers to: a gather with offset_dims [2],
  collapsed_slice_dims [0], start_index_map [0], slice_sizes [1, D] and index_vector_dim 2 over the indices as
  [R, C, 1]. Result element (t, j, k) is `x` at row `idx[t, j, 0]`, read as a signed integer and clamped into
  [0, N − 1], and column k: on the row axis the clamped start (the slice is one row), on the column axis the
  result's own offset coordinate (the slice is the whole row, so its start is 0). This is the companion, for a
  matrix operand, of the library's lookup of a flat operand at the same indices: a column of the rows looked up is
  the column looked up.
-/
import Idealize.ShloMosaic.Lib.ValueIdx

namespace Cert.Lib

open Idealize.ShloMosaic Idealize.ShloMosaic.ValueIdx

section RowsAt
variable {α : Type}

/-- Those dimension numbers for an operand [N, D], start indices [R, C, 1] and result [R, C, D]. -/
abbrev rowsAtDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

theorem idx3_lt0 {n0 n1 n2 : Nat} (y : (⟨3, ![n0, n1, n2]⟩ : Shape).Idx) : (y 0).val < n0 := (y 0).isLt
theorem idx3_lt1 {n0 n1 n2 : Nat} (y : (⟨3, ![n0, n1, n2]⟩ : Shape).Idx) : (y 1).val < n1 := (y 1).isLt
theorem idx3_lt2 {n0 n1 n2 : Nat} (y : (⟨3, ![n0, n1, n2]⟩ : Shape).Idx) : (y 2).val < n2 := (y 2).isLt

/-- The start-indices index [t, j, 0] of result index (t, j, k). -/
abbrev rowsAtIdx {R C D : Nat} (y : (⟨3, ![R, C, D]⟩ : Shape).Idx) : (⟨3, ![R, C, 1]⟩ : Shape).Idx :=
  fun a => match a with | ⟨0, _⟩ => ⟨(y 0).val, idx3_lt0 y⟩ | ⟨1, _⟩ => ⟨(y 1).val, idx3_lt1 y⟩ | ⟨2, _⟩ => ⟨0, Nat.one_pos⟩

/-- THE ROW LOOKUP READ AT (t, j, k): the operand at the row `idx[t, j, 0]`, read signed and clamped into [0, N − 1],
    and column k. -/
theorem gather_rowsAt_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowsAtDims N D R C wf) x idx y
      = x (ix2 ⟨min (idx (rowsAtIdx y)).toInt.toNat (N - 1), by omega⟩ ⟨(y 2).val, idx3_lt2 y⟩) := by
  unfold Host.gather
  congr 1
  funext a
  refine Fin.ext ?_
  have h0 : (rowsAtDims N D R C wf).start y idx (0 : Fin 2) + (rowsAtDims N D R C wf).batchCoord y (0 : Fin 2)
      + (rowsAtDims N D R C wf).offCoord y (0 : Fin 2) = min (idx (rowsAtIdx y)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsAtDims N D R C wf).startIndexMap from List.mem_singleton.mpr rfl)]
    have hsi : (rowsAtDims N D R C wf).siIdx y ⟨List.idxOf (0 : Fin 2) (rowsAtDims N D R C wf).startIndexMap,
        List.idxOf_lt_length_iff.2 (List.mem_singleton.mpr rfl)⟩ = rowsAtIdx y := by
      funext b; refine Fin.ext ?_
      match b with
      | ⟨0, _⟩ => rfl
      | ⟨1, _⟩ => rfl
      | ⟨2, _⟩ => rfl
    rw [hsi]
    rfl
  have h1 : (rowsAtDims N D R C wf).start y idx (1 : Fin 2) + (rowsAtDims N D R C wf).batchCoord y (1 : Fin 2)
      + (rowsAtDims N D R C wf).offCoord y (1 : Fin 2) = (y 2).val := by
    rw [GatherDims.batchCoord_eq_zero _ _ _ List.not_mem_nil]
    have hstart : (rowsAtDims N D R C wf).start y idx (1 : Fin 2) = 0 := by
      unfold GatherDims.start
      rw [dif_neg (show (1 : Fin 2) ∉ ([0] : List (Fin 2)) by decide)]
    have hkept : (1 : Fin 2) ∈ (rowsAtDims N D R C wf).sKept :=
      (GatherDims.mem_sKept _ _).mpr ⟨(show (1 : Fin 2) ∉ ([0] : List (Fin 2)) by decide), List.not_mem_nil⟩
    rw [hstart]
    unfold GatherDims.offCoord
    rw [dif_pos hkept]
    simp only [Nat.zero_add, Nat.add_zero]
    rfl
  match a with
  | ⟨0, _⟩ => exact h0
  | ⟨1, _⟩ => exact h1

end RowsAt

end Cert.Lib
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.LibColumnBack.lean ====
/-
  A column read back as a vector.

  An `[a, 1]` column reshaped to a vector of `a` entries reads, at `i`, the column's entry `(i, 0)`: the inverse of laying
  a vector as a column.
-/
import Idealize.ShloMosaic.Lib.ValueIdx
import Idealize.ShloMosaic.Lib.Pipeline.Value

noncomputable section

namespace Cert.Lib

open Idealize.ShloMosaic Idealize.ShloMosaic.ValueIdx

variable {α : Type}

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.EntryKI.lean ====
/-
  What the region's nine arrays hold when the region is entered, as functions of the seven argument arrays.

  The host lines before the region cut c6 and alpha out of the dispersion parameters, look r4r2 up at the atomic
  numbers, and look each of c6, alpha, r4r2, x, y, z up at the neighbour matrix (negative entries wrapped by the
  number of atoms first, every start index then clamped into range). Three of the six neighbour arrays — c6, alpha
  and r4r2 at the neighbours — are, term for term, arrays the reference computes too; the three coordinate arrays are
  a flat column of the coordinates looked up at the neighbours, where the reference looks whole coordinate rows up:
  entry (n, j) of column k's lookup is entry (n, j, k) of the rows' lookup, both the coordinate k of the atom at the
  clamped index. The own-atom array lays six columns side by side: its entry (n, k) is column k's entry n. The mask
  array is the mask widened to a word.
-/
import proofs.«106823_j18580028522577_2_alg».proof.Proof.RunKI
import proofs.«106823_j18580028522577_2_alg».proof.Proof.Gen.ReferenceIdeal.Read
import proofs.«106823_j18580028522577_2_alg».proof.Proof.LibGatherRowsAt
import proofs.«106823_j18580028522577_2_alg».proof.Proof.LibConcatCols
import proofs.«106823_j18580028522577_2_alg».proof.Proof.LibColumnBack
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ)

/-! ## The three neighbour arrays both programs compute -/

set_option maxHeartbeats 4000000 in
/-- c6 at the neighbours. -/
theorem entry_c6j (c : Dev nD) :
    V m c main_v17 = Cert.ReferenceIdeal.Read.val_main_v12 (F := Ideal) (m ((c : Thread nD τ).loc main_arg0)) (m ((c : Thread nD τ).loc main_arg4)) := by
  show StableHlo.after hostOps0 (fun b => m (c, b)) (Proc.devRef .tc main_v17) = _
  after_results_simp <;> rfl

set_option maxHeartbeats 4000000 in
/-- alpha at the neighbours. -/
theorem entry_alj (c : Dev nD) :
    V m c main_v24 = Cert.ReferenceIdeal.Read.val_main_v19 (F := Ideal) (m ((c : Thread nD τ).loc main_arg0)) (m ((c : Thread nD τ).loc main_arg4)) := by
  show StableHlo.after hostOps0 (fun b => m (c, b)) (Proc.devRef .tc main_v24) = _
  after_results_simp <;> rfl

set_option maxHeartbeats 4000000 in
/-- r4r2 of the neighbours' elements. -/
theorem entry_rrj (c : Dev nD) :
    V m c main_v31 = Cert.ReferenceIdeal.Read.val_main_v51 (F := Ideal) (m ((c : Thread nD τ).loc main_arg2)) (m ((c : Thread nD τ).loc main_arg3)) (m ((c : Thread nD τ).loc main_arg4)) := by
  show StableHlo.after hostOps0 (fun b => m (c, b)) (Proc.devRef .tc main_v31) = _
  after_results_simp <;> rfl

set_option maxHeartbeats 4000000 in
/-- The mask, widened to a word. -/
theorem entry_mask (c : Dev nD) :
    V m c main_v72 = extui 32 (m ((c : Thread nD τ).loc main_arg5)) natLt_1_32 := by
  show StableHlo.after hostOps0 (fun b => m (c, b)) (Proc.devRef .tc main_v72) = _
  after_results_simp <;> rfl

/-! ## The coordinate arrays -/

/-- Column k of a matrix, cut out and laid as a flat vector, read at an entry. -/
theorem colVec_apply {α : Type} {N D : ℕ} (x : (⟨2, ![N, D]⟩ : Shape).Idx → α) (k : Fin D)
    (hs : (⟨2, ![N, D]⟩ : Shape).Slices ![0, k.val] ⟨2, ![N, 1]⟩) (hc : (⟨2, ![N, 1]⟩ : Shape).ShapeCasts ⟨1, ![N]⟩) (p : Fin N) :
    shapeCast ⟨1, ![N]⟩ (extractStridedSlice ⟨2, ![N, 1]⟩ ![0, k.val] x hs) hc (ix1 p) = x (ix2 p k) := by
  rw [Cert.Lib.shapeCast_a1_a_apply]
  exact extractStridedSlice_apply _ _ _ _ _ (fun a => by
    match a with
    | ⟨0, _⟩ => exact (Nat.zero_add _).symm
    | ⟨1, _⟩ => rfl)

/-- A flat column of the coordinates looked up at the neighbours is that column of the coordinate rows looked up at the
    neighbours: both read the coordinate of the atom at the start index, read signed and clamped into range. -/
theorem coord_lookup (a1 : (⟨2, ![200000, 3]⟩ : Shape).Idx → EReal) (idx : IVec ⟨3, ![200000, 64, 1]⟩ 32) (k : Fin 3)
    (hs : (⟨2, ![200000, 3]⟩ : Shape).Slices ![0, k.val] ⟨2, ![200000, 1]⟩) (hc : (⟨2, ![200000, 1]⟩ : Shape).ShapeCasts ⟨1, ![200000]⟩)
    (n : Fin 200000) (j : Fin 64) :
    Host.gather gather_S200000_S200000x64x1_S200000x64_n_0_n_n_0_2_1
        (shapeCast ⟨1, ![200000]⟩ (extractStridedSlice ⟨2, ![200000, 1]⟩ ![0, k.val] a1 hs) hc) idx (ix2 n j)
      = Host.gather Cert.ReferenceIdeal.gather_S200000x3_S200000x64x1_S200000x64x3_2_0_n_n_0_2_13 a1 idx (ix3 n j k) := by
  have hK : gather_S200000_S200000x64x1_S200000x64_n_0_n_n_0_2_1
      = takeDims 200000 200000 64 gather_S200000_S200000x64x1_S200000x64_n_0_n_n_0_2_1_wf := rfl
  have hR : Cert.ReferenceIdeal.gather_S200000x3_S200000x64x1_S200000x64x3_2_0_n_n_0_2_13
      = Cert.Lib.rowsAtDims 200000 3 200000 64 Cert.ReferenceIdeal.Gen.gather_S200000x3_S200000x64x1_S200000x64x3_2_0_n_n_0_2_13_wf := rfl
  rw [hK, hR, gather_take_apply (by decide), Cert.Lib.gather_rowsAt_apply (by decide), colVec_apply]
  have hi : takeIdx (ix2 n j) = Cert.Lib.rowsAtIdx (ix3 n j k) :=
    funext fun a => Fin.ext (by match a with | ⟨0, _⟩ => rfl | ⟨1, _⟩ => rfl | ⟨2, _⟩ => rfl)
  refine congrArg a1 (funext fun a => Fin.ext ?_)
  match a with
  | ⟨0, _⟩ =>
    show min (idx (takeIdx (ix2 n j))).toInt.toNat (200000 - 1) = min (idx (Cert.Lib.rowsAtIdx (ix3 n j k))).toInt.toNat (200000 - 1)
    rw [hi]
  | ⟨1, _⟩ => rfl

set_option maxHeartbeats 4000000 in
/-- Coordinate 0 at the neighbours, as the host lines compute it. -/
theorem entry_coord0_term (c : Dev nD) :
    V m c main_v40 = Host.gather gather_S200000_S200000x64x1_S200000x64_n_0_n_n_0_2_1
      (shapeCast S200000 (extractStridedSlice S200000x1 ![0, 0] (m ((c : Thread nD τ).loc main_arg1)) slices_S200000x3_S200000x1_0_0) shapeCasts_S200000x1_S200000)
      (Cert.ReferenceIdeal.Read.val_main_v66 (F := Ideal) (m ((c : Thread nD τ).loc main_arg4))) := by
  show StableHlo.after hostOps0 (fun b => m (c, b)) (Proc.devRef .tc main_v40) = _
  after_results_simp <;> rfl

/-- Entry (n, j) of it is entry (n, j, 0) of the coordinate rows looked up at the neighbours. -/
theorem entry_coord0 (c : Dev nD) (n : Fin 200000) (j : Fin 64) :
    V m c main_v40 (ix2 n j) = Cert.ReferenceIdeal.Read.val_main_v67 (F := Ideal) (m ((c : Thread nD τ).loc main_arg1)) (m ((c : Thread nD τ).loc main_arg4)) (ix3 n j (0 : Fin 3)) := by
  rw [entry_coord0_term]
  exact coord_lookup (m ((c : Thread nD τ).loc main_arg1)) (Cert.ReferenceIdeal.Read.val_main_v66 (F := Ideal) (m ((c : Thread nD τ).loc main_arg4))) (0 : Fin 3) slices_S200000x3_S200000x1_0_0 shapeCasts_S200000x1_S200000 n j

set_option maxHeartbeats 4000000 in
/-- Coordinate 1 at the neighbours, as the host lines compute it. -/
theorem entry_coord1_term (c : Dev nD) :
    V m c main_v49 = Host.gather gather_S200000_S200000x64x1_S200000x64_n_0_n_n_0_2_1
      (shapeCast S200000 (extractStridedSlice S200000x1 ![0, 1] (m ((c : Thread nD τ).loc main_arg1)) slices_S200000x3_S200000x1_0_1) shapeCasts_S200000x1_S200000)
      (Cert.ReferenceIdeal.Read.val_main_v66 (F := Ideal) (m ((c : Thread nD τ).loc main_arg4))) := by
  show StableHlo.after hostOps0 (fun b => m (c, b)) (Proc.devRef .tc main_v49) = _
  after_results_simp <;> rfl

/-- Entry (n, j) of it is entry (n, j, 1) of the coordinate rows looked up at the neighbours. -/
theorem entry_coord1 (c : Dev nD) (n : Fin 200000) (j : Fin 64) :
    V m c main_v49 (ix2 n j) = Cert.ReferenceIdeal.Read.val_main_v67 (F := Ideal) (m ((c : Thread nD τ).loc main_arg1)) (m ((c : Thread nD τ).loc main_arg4)) (ix3 n j (1 : Fin 3)) := by
  rw [entry_coord1_term]
  exact coord_lookup (m ((c : Thread nD τ).loc main_arg1)) (Cert.ReferenceIdeal.Read.val_main_v66 (F := Ideal) (m ((c : Thread nD τ).loc main_arg4))) (1 : Fin 3) slices_S200000x3_S200000x1_0_1 shapeCasts_S200000x1_S200000 n j

set_option maxHeartbeats 4000000 in
/-- Coordinate 2 at the neighbours, as the host lines compute it. -/
theorem entry_coord2_term (c : Dev nD) :
    V m c main_v58 = Host.gather gather_S200000_S200000x64x1_S200000x64_n_0_n_n_0_2_1
      (shapeCast S200000 (extractStridedSlice S200000x1 ![0, 2] (m ((c : Thread nD τ).loc main_arg1)) slices_S200000x3_S200000x1_0_2) shapeCasts_S200000x1_S200000)
      (Cert.ReferenceIdeal.Read.val_main_v66 (F := Ideal) (m ((c : Thread nD τ).loc main_arg4))) := by
  show StableHlo.after hostOps0 (fun b => m (c, b)) (Proc.devRef .tc main_v58) = _
  after_results_simp <;> rfl

/-- Entry (n, j) of it is entry (n, j, 2) of the coordinate rows looked up at the neighbours. -/
theorem entry_coord2 (c : Dev nD) (n : Fin 200000) (j : Fin 64) :
    V m c main_v58 (ix2 n j) = Cert.ReferenceIdeal.Read.val_main_v67 (F := Ideal) (m ((c : Thread nD τ).loc main_arg1)) (m ((c : Thread nD τ).loc main_arg4)) (ix3 n j (2 : Fin 3)) := by
  rw [entry_coord2_term]
  exact coord_lookup (m ((c : Thread nD τ).loc main_arg1)) (Cert.ReferenceIdeal.Read.val_main_v66 (F := Ideal) (m ((c : Thread nD τ).loc main_arg4))) (2 : Fin 3) slices_S200000x3_S200000x1_0_2 shapeCasts_S200000x1_S200000 n j

/-! ## The own-atom array -/

/-- Column k of the coordinates laid as an [N, 1] column, as the host lines lay it. -/
def colAsColumn (a1 : (⟨2, ![200000, 3]⟩ : Shape).Idx → EReal) (k : Fin 3)
    (hs : (⟨2, ![200000, 3]⟩ : Shape).Slices ![0, k.val] ⟨2, ![200000, 1]⟩) : (⟨2, ![200000, 1]⟩ : Shape).Idx → EReal :=
  broadcastInDim S200000x1 ![0] bcast_S200000_S200000x1_0
    (shapeCast S200000 (extractStridedSlice S200000x1 ![0, k.val] a1 hs) shapeCasts_S200000x1_S200000)

/-- Its entry (p, 0) is the coordinate k of atom p. -/
theorem colAsColumn_apply (a1 : (⟨2, ![200000, 3]⟩ : Shape).Idx → EReal) (k : Fin 3)
    (hs : (⟨2, ![200000, 3]⟩ : Shape).Slices ![0, k.val] ⟨2, ![200000, 1]⟩) (p : Fin 200000) :
    colAsColumn a1 k hs (ix2 p (0 : Fin 1)) = a1 (ix2 p k) := by
  unfold colAsColumn
  rw [broadcastInDim_apply _ _ _ _ (ix1 p) (fun a => by match a with | ⟨0, _⟩ => rfl)]
  exact colVec_apply a1 k hs shapeCasts_S200000x1_S200000 p

set_option maxHeartbeats 8000000 in
/-- The own-atom array is the six columns c6, alpha, r4r2 of the atom's element, x, y, z side by side. -/
theorem entry_own_cat (c : Dev nD) :
    V m c main_v71 = concatenate S200000x6 1
      [⟨S200000x1, Cert.ReferenceIdeal.Read.val_main_v4 (F := Ideal) (m ((c : Thread nD τ).loc main_arg0))⟩,
      ⟨S200000x1, Cert.ReferenceIdeal.Read.val_main_v5 (F := Ideal) (m ((c : Thread nD τ).loc main_arg0))⟩,
      ⟨S200000x1, Cert.ReferenceIdeal.Read.val_main_v42 (F := Ideal) (m ((c : Thread nD τ).loc main_arg2)) (m ((c : Thread nD τ).loc main_arg3))⟩,
      ⟨S200000x1, colAsColumn (m ((c : Thread nD τ).loc main_arg1)) (0 : Fin 3) slices_S200000x3_S200000x1_0_0⟩,
      ⟨S200000x1, colAsColumn (m ((c : Thread nD τ).loc main_arg1)) (1 : Fin 3) slices_S200000x3_S200000x1_0_1⟩,
      ⟨S200000x1, colAsColumn (m ((c : Thread nD τ).loc main_arg1)) (2 : Fin 3) slices_S200000x3_S200000x1_0_2⟩]
      concatenates_S200000x1_S200000x1_S200000x1_S200000x1_S200000x1_S200000x1_S200000x6_d1 := by
  show StableHlo.after hostOps0 (fun b => m (c, b)) (Proc.devRef .tc main_v71) = _
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Matrix.cons_val] <;> rfl

/-- Column 0 of the own-atom array. -/
theorem entry_own0_piece (c : Dev nD) (n : Fin 200000) :
    V m c main_v71 (ix2 n (0 : Fin 6)) = (Cert.ReferenceIdeal.Read.val_main_v4 (F := Ideal) (m ((c : Thread nD τ).loc main_arg0))) (ix2 n (0 : Fin 1)) := by
  rw [entry_own_cat]
  exact Cert.Lib.concat_cols_apply _ _ 0 (by show 0 < 6; decide) _ rfl 0 (by rfl) n (0 : Fin 1) (by decide)

/-- Column 1 of the own-atom array. -/
theorem entry_own1_piece (c : Dev nD) (n : Fin 200000) :
    V m c main_v71 (ix2 n (1 : Fin 6)) = (Cert.ReferenceIdeal.Read.val_main_v5 (F := Ideal) (m ((c : Thread nD τ).loc main_arg0))) (ix2 n (0 : Fin 1)) := by
  rw [entry_own_cat]
  exact Cert.Lib.concat_cols_apply _ _ 1 (by show 1 < 6; decide) _ rfl 1 (by rfl) n (0 : Fin 1) (by decide)

/-- Column 2 of the own-atom array. -/
theorem entry_own2_piece (c : Dev nD) (n : Fin 200000) :
    V m c main_v71 (ix2 n (2 : Fin 6)) = (Cert.ReferenceIdeal.Read.val_main_v42 (F := Ideal) (m ((c : Thread nD τ).loc main_arg2)) (m ((c : Thread nD τ).loc main_arg3))) (ix2 n (0 : Fin 1)) := by
  rw [entry_own_cat]
  exact Cert.Lib.concat_cols_apply _ _ 2 (by show 2 < 6; decide) _ rfl 2 (by rfl) n (0 : Fin 1) (by decide)

/-- Column 3 of the own-atom array. -/
theorem entry_own3_piece (c : Dev nD) (n : Fin 200000) :
    V m c main_v71 (ix2 n (3 : Fin 6)) = (colAsColumn (m ((c : Thread nD τ).loc main_arg1)) (0 : Fin 3) slices_S200000x3_S200000x1_0_0) (ix2 n (0 : Fin 1)) := by
  rw [entry_own_cat]
  exact Cert.Lib.concat_cols_apply _ _ 3 (by show 3 < 6; decide) _ rfl 3 (by rfl) n (0 : Fin 1) (by decide)

/-- Column 4 of the own-atom array. -/
theorem entry_own4_piece (c : Dev nD) (n : Fin 200000) :
    V m c main_v71 (ix2 n (4 : Fin 6)) = (colAsColumn (m ((c : Thread nD τ).loc main_arg1)) (1 : Fin 3) slices_S200000x3_S200000x1_0_1) (ix2 n (0 : Fin 1)) := by
  rw [entry_own_cat]
  exact Cert.Lib.concat_cols_apply _ _ 4 (by show 4 < 6; decide) _ rfl 4 (by rfl) n (0 : Fin 1) (by decide)

/-- Column 5 of the own-atom array. -/
theorem entry_own5_piece (c : Dev nD) (n : Fin 200000) :
    V m c main_v71 (ix2 n (5 : Fin 6)) = (colAsColumn (m ((c : Thread nD τ).loc main_arg1)) (2 : Fin 3) slices_S200000x3_S200000x1_0_2) (ix2 n (0 : Fin 1)) := by
  rw [entry_own_cat]
  exact Cert.Lib.concat_cols_apply _ _ 5 (by show 5 < 6; decide) _ rfl 5 (by rfl) n (0 : Fin 1) (by decide)

end Cert.KernelIdeal.Hand

end
-- ==== Proof.PairSpec.lean ====
/-
  The pair term of the D3(BJ)-style dispersion energy on the extended reals, in the two groupings the two programs use.

  For an atom i and a neighbour j with mask bit mk:
    c6ij = mk ? (2·c6_i)·c6_j / max(c6_i·α_j/α_i + c6_j·α_i/α_j, ε) : 0
    rrij = mk ? (3·rr_i)·rr_j : 1,      r0 = a1·√rrij + a2
    d    = √(|x_i − x_j|²) · b,         e = c6ij · (1/(d⁶ + r0⁶) + s8·rrij/(d⁸ + r0⁸))
  with ε, a1, a2, b, s8 the f32 words both programs carry. The two programs differ only in how they group:
  the maximum's operands are swapped; the squared distance is (dx² + dy²) + dz² in one and 0 + Σ_k over the three
  axes in the other; r0⁸ is ((r0⁶·r0)·r0) in one and (r0⁴)·(r0⁴) in the other. On the extended reals max is
  commutative, 0 is neutral for +, and · is associative and commutative, so the two terms are equal — for ALL
  extended reals, the infinities included: no distributive law is used, hence no finiteness.
-/
import Idealize.ShloMosaic.PureOps.Ideal
import Idealize.ShloMosaic.PureOps.Ideal.Laws
import Mathlib.Algebra.BigOperators.Fin

noncomputable section

namespace Cert.Pair

open Idealize.ShloMosaic

/-- The f32 words of the formula, as the extended reals they denote. -/
abbrev eps : EReal := Ideal.ofBits .f32 0x38D1B717#32
abbrev two : EReal := Ideal.ofBits .f32 0x40000000#32
abbrev three : EReal := Ideal.ofBits .f32 0x40400000#32
abbrev one : EReal := Ideal.ofBits .f32 0x3F800000#32
abbrev zero : EReal := Ideal.ofBits .f32 0x00000000#32
abbrev a1 : EReal := Ideal.ofBits .f32 0x3EFD5BAB#32
abbrev a2 : EReal := Ideal.ofBits .f32 0x40B76304#32
abbrev bohr : EReal := Ideal.ofBits .f32 0x3FF1E28C#32
abbrev s8 : EReal := Ideal.ofBits .f32 0x3F4A3137#32

/-- The damping radius r0 from the masked product rrij. -/
def damp (rrij : EReal) : EReal := a1 * Ideal.sqrt rrij + a2
/-- The distance in Bohr from the squared distance. -/
def dist (dd : EReal) : EReal := Ideal.sqrt dd * bohr
/-- a⁶ as both programs spell it: a² · (a² · a²). -/
def p6 (a : EReal) : EReal := (a * a) * ((a * a) * (a * a))
/-- a⁸ as a⁶ · a · a. -/
def p8K (a : EReal) : EReal := (p6 a * a) * a
/-- a⁸ as (a⁴) · (a⁴). -/
def p8R (a : EReal) : EReal := ((a * a) * (a * a)) * ((a * a) * (a * a))

/-- The energy of one pair from the masked c6ij, the masked rrij and the squared distance; `r8` is the spelling of
    the eighth power of the damping radius (the distance's eighth power is d⁶·d·d in both programs). -/
def energy (r8 : EReal → EReal) (c6ij rrij dd : EReal) : EReal :=
  c6ij * (Ideal.div one (p6 (dist dd) + p6 (damp rrij)) + Ideal.div (s8 * rrij) (p8K (dist dd) + r8 (damp rrij)))

/-- The pair term in the kernel's grouping. -/
def pairK (c6i ali rri xi yi zi c6j alj rrj xj yj zj : EReal) (mk : BitVec 1) : EReal :=
  energy p8K
    (Scalar.select mk (Ideal.div ((two * c6i) * c6j) (max (Ideal.div (c6i * alj) ali + Ideal.div (c6j * ali) alj) eps)) zero)
    (Scalar.select mk ((three * rri) * rrj) one)
    (((xi - xj) * (xi - xj) + (yi - yj) * (yi - yj)) + (zi - zj) * (zi - zj))

/-- The pair term in the reference's grouping; `ci`, `cj` are the two atoms' coordinates by axis. -/
def pairR (c6i ali rri : EReal) (ci : Fin 3 → EReal) (c6j alj rrj : EReal) (cj : Fin 3 → EReal) (mk : BitVec 1) : EReal :=
  energy p8R
    (Scalar.select mk (Ideal.div ((two * c6i) * c6j) (max eps (Ideal.div (c6i * alj) ali + Ideal.div (c6j * ali) alj))) zero)
    (Scalar.select mk ((three * rri) * rrj) one)
    (zero + ∑ k : Fin 3, (ci k - cj k) * (ci k - cj k))

/-- The word 0x00000000 denotes 0. -/
theorem zero_eq : zero = 0 := Ideal.ofBits_zero_f32

/-- The two spellings of the eighth power agree: · is associative on the extended reals. -/
theorem p8R_eq_p8K (a : EReal) : p8R a = p8K a := by
  unfold p8R p8K p6
  simp only [mul_assoc]

/-- THE LAW: the reference's pair term is the kernel's. -/
theorem pairR_eq_pairK (c6i ali rri : EReal) (ci : Fin 3 → EReal) (c6j alj rrj : EReal) (cj : Fin 3 → EReal) (mk : BitVec 1) :
    pairR c6i ali rri ci c6j alj rrj cj mk
      = pairK c6i ali rri (ci 0) (ci 1) (ci 2) c6j alj rrj (cj 0) (cj 1) (cj 2) mk := by
  unfold pairR pairK energy
  rw [Fin.sum_univ_three, zero_eq, zero_add, p8R_eq_p8K, max_comm]

end Cert.Pair

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«106823_j18580028522577_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.StoredRead.lean ====
/-
  The value the body of the idealized kernel stores, read at a row.

  The stored column at row r is the sum over the row's 64 neighbours j of the pair term of the dispersion energy, in
  the grouping the kernel computes it in: of the own-atom data (c6, alpha, r4r2, x, y, z: the six columns of row r of
  the own-atom block), the neighbour data at (r, j) of the six neighbour blocks, and the mask bit "the neighbour word
  at (r, j) is not zero". Each named payload of the body is read at an index (r, j): the pointwise operations act
  entry by entry, a one-column value broadcast along the neighbour axis reads its entry of row r, a load through a
  one-column rectangle at column c reads the block at (r, c), a load through the whole rectangle reads the block, and a
  cast of a shape to itself is the identity. The final reduction over the neighbour axis, with the zero accumulator,
  read at row r is the finite sum over j, and the cast of the 2000 sums to a column reads that sum at (r, 0).
-/
import proofs.«106823_j18580028522577_2_alg».proof.Proof.StoredKI
import proofs.«106823_j18580028522577_2_alg».proof.Proof.PairSpec
import Idealize.ShloMosaic.Lib.ValueIdx
import Idealize.ShloMosaic.Lib.Pipeline.Value
import Idealize.ShloMosaic.Lib.ValueLayout
import Idealize.ShloMosaic.PureOps.Ideal.Laws
import proofs.«106823_j18580028522577_2_alg».proof.Proof.LibRowSum
import proofs.«106823_j18580028522577_2_alg».proof.Proof.LibColumn

noncomputable section

namespace Cert.KernelIdeal.Hand

open Cert.KernelIdeal Cert.KernelIdeal.Gen Idealize.ShloMosaic Idealize.ShloMosaic.ValueIdx
open scoped BigOperators

/-! ## The loads

A load through the whole rectangle of a neighbour block reads the block; a load through the one-column rectangle at
column `c` of the own-atom block reads, at row `r`, the block's entry `(r, c)`. -/

theorem ld_wide {e : EltTy} (x : Vec Ideal S2000x64 e) : View.ld x rwide = x :=
  View.ld_unit_zero (funext fun a => by fin_cases a <;> rfl) _ x

theorem ld_col0 (x0 : Vec Ideal S2000x6 .f32) (r : Fin 2000) :
    (View.ld x0 rcol0 : Vec Ideal S2000x1 .f32) (ix2 r 0) = x0 (ix2 r 0) :=
  congrArg x0 (funext fun a => Fin.ext (by
    match a with
    | ⟨0, _⟩ => show 0 + 1 * r.val = r.val; omega
    | ⟨1, _⟩ => rfl))

theorem ld_col1 (x0 : Vec Ideal S2000x6 .f32) (r : Fin 2000) :
    (View.ld x0 rcol1 : Vec Ideal S2000x1 .f32) (ix2 r 0) = x0 (ix2 r 1) :=
  congrArg x0 (funext fun a => Fin.ext (by
    match a with
    | ⟨0, _⟩ => show 0 + 1 * r.val = r.val; omega
    | ⟨1, _⟩ => rfl))

theorem ld_col2 (x0 : Vec Ideal S2000x6 .f32) (r : Fin 2000) :
    (View.ld x0 rcol2 : Vec Ideal S2000x1 .f32) (ix2 r 0) = x0 (ix2 r 2) :=
  congrArg x0 (funext fun a => Fin.ext (by
    match a with
    | ⟨0, _⟩ => show 0 + 1 * r.val = r.val; omega
    | ⟨1, _⟩ => rfl))

theorem ld_col3 (x0 : Vec Ideal S2000x6 .f32) (r : Fin 2000) :
    (View.ld x0 rcol3 : Vec Ideal S2000x1 .f32) (ix2 r 0) = x0 (ix2 r 3) :=
  congrArg x0 (funext fun a => Fin.ext (by
    match a with
    | ⟨0, _⟩ => show 0 + 1 * r.val = r.val; omega
    | ⟨1, _⟩ => rfl))

theorem ld_col4 (x0 : Vec Ideal S2000x6 .f32) (r : Fin 2000) :
    (View.ld x0 rcol4 : Vec Ideal S2000x1 .f32) (ix2 r 0) = x0 (ix2 r 4) :=
  congrArg x0 (funext fun a => Fin.ext (by
    match a with
    | ⟨0, _⟩ => show 0 + 1 * r.val = r.val; omega
    | ⟨1, _⟩ => rfl))

theorem ld_col5 (x0 : Vec Ideal S2000x6 .f32) (r : Fin 2000) :
    (View.ld x0 rcol5 : Vec Ideal S2000x1 .f32) (ix2 r 0) = x0 (ix2 r 5) :=
  congrArg x0 (funext fun a => Fin.ext (by
    match a with
    | ⟨0, _⟩ => show 0 + 1 * r.val = r.val; omega
    | ⟨1, _⟩ => rfl))

/-! ## The casts of a shape to itself are the identity -/

theorem pay2_eq (v : Vec Ideal S2000x1 .f32) : k0_pay2 (F := Ideal) v = v := shapeCast_self v _
theorem pay3_eq (v : Vec Ideal S2000x1 .f32) : k0_pay3 (F := Ideal) v = v := shapeCast_self v _
theorem pay4_eq (v : Vec Ideal S2000x1 .f32) : k0_pay4 (F := Ideal) v = v := shapeCast_self v _
theorem pay5_eq (v : Vec Ideal S2000x1 .f32) : k0_pay5 (F := Ideal) v = v := shapeCast_self v _
theorem pay6_eq (v : Vec Ideal S2000x1 .f32) : k0_pay6 (F := Ideal) v = v := shapeCast_self v _
theorem pay7_eq (v : Vec Ideal S2000x1 .f32) : k0_pay7 (F := Ideal) v = v := shapeCast_self v _
theorem pay8_eq (v : Vec Ideal S2000x64 .f32) : k0_pay8 (F := Ideal) v = v := shapeCast_self v _
theorem pay9_eq (v : Vec Ideal S2000x64 .f32) : k0_pay9 (F := Ideal) v = v := shapeCast_self v _
theorem pay10_eq (v : Vec Ideal S2000x64 .f32) : k0_pay10 (F := Ideal) v = v := shapeCast_self v _
theorem pay11_eq (v : Vec Ideal S2000x64 .f32) : k0_pay11 (F := Ideal) v = v := shapeCast_self v _
theorem pay12_eq (v : Vec Ideal S2000x64 .f32) : k0_pay12 (F := Ideal) v = v := shapeCast_self v _
theorem pay13_eq (v : Vec Ideal S2000x64 .f32) : k0_pay13 (F := Ideal) v = v := shapeCast_self v _

/-! ## The pointwise payloads at an index `(r, j)` -/

/-- A column broadcast along the neighbour axis reads the column's entry of the row. -/
theorem bcast_apply (v : FVec Ideal S2000x1 .f32) (r : Fin 2000) (j : Fin 64) :
    broadcastTo S2000x64 v broadcasts_S2000x1_S2000x64 (ix2 r j) = v (ix2 r 0) :=
  Cert.Lib.broadcastTo_a1_ab_apply v _ r j

/-- A pointwise square root, read at an index. -/
theorem sqrt_apply {s : Shape} {φ : FTy} (a : FVec Ideal s φ) (i : s.Idx) : sqrt a i = Ideal.sqrt (a i) := rfl

/-- The mask bit: the neighbour word is not zero. -/
theorem pay14_apply (v24 : Vec Ideal S2000x64 .i32) (r : Fin 2000) (j : Fin 64) :
    k0_pay14 (F := Ideal) v24 (ix2 r j) = IntOp.cmpi .ne (v24 (ix2 r j)) 0#32 := rfl

/-- c6_i · α_j / α_i. -/
theorem pay15_apply (v0 v2 : Vec Ideal S2000x1 .f32) (v14 : Vec Ideal S2000x64 .f32) (r : Fin 2000) (j : Fin 64) :
    k0_pay15 (F := Ideal) v0 v2 v14 (ix2 r j) = Ideal.div (v0 (ix2 r 0) * v14 (ix2 r j)) (v2 (ix2 r 0)) := by
  unfold k0_pay15
  simp only [divf_apply, mulf_apply, bcast_apply, pay2_eq, pay3_eq, pay9_eq]

/-- c6_j · α_i. -/
theorem pay16_apply (v2 : Vec Ideal S2000x1 .f32) (v12 : Vec Ideal S2000x64 .f32) (r : Fin 2000) (j : Fin 64) :
    k0_pay16 (F := Ideal) v2 v12 (ix2 r j) = v12 (ix2 r j) * v2 (ix2 r 0) := by
  unfold k0_pay16
  simp only [mulf_apply, bcast_apply, pay3_eq, pay8_eq]

/-- The masked c6 coefficient of the pair. -/
theorem pay17_apply (v1 : FVec Ideal S2000x1 .f32) (v13 v15 : FVec Ideal S2000x64 .f32) (v25 : IVec S2000x64 1)
    (v29 v31 : FVec Ideal S2000x64 .f32) (r : Fin 2000) (j : Fin 64) :
    k0_pay17 (F := Ideal) v1 v13 v15 v25 v29 v31 (ix2 r j)
      = Scalar.select (v25 (ix2 r j))
          (Ideal.div ((Cert.Pair.two * v1 (ix2 r 0)) * v13 (ix2 r j))
            (max (v29 (ix2 r j) + Ideal.div (v31 (ix2 r j)) (v15 (ix2 r j))) Cert.Pair.eps))
          Cert.Pair.zero := by
  unfold k0_pay17
  simp only [select_apply, divf_apply, mulf_apply, addf_apply, maximumf_apply, bcast_apply, broadcast_apply]
  rfl

/-- The masked product of the two r4r2 values. -/
theorem pay18_apply (v5 : FVec Ideal S2000x1 .f32) (v17 : FVec Ideal S2000x64 .f32) (v25 : IVec S2000x64 1)
    (r : Fin 2000) (j : Fin 64) :
    k0_pay18 (F := Ideal) v5 v17 v25 (ix2 r j)
      = Scalar.select (v25 (ix2 r j)) ((Cert.Pair.three * v5 (ix2 r 0)) * v17 (ix2 r j)) Cert.Pair.one := by
  unfold k0_pay18
  simp only [select_apply, mulf_apply, bcast_apply, broadcast_apply]
  rfl

/-- The damping radius. -/
theorem pay19_apply (v5 : FVec Ideal S2000x1 .f32) (v17 : FVec Ideal S2000x64 .f32) (v25 : IVec S2000x64 1)
    (r : Fin 2000) (j : Fin 64) :
    k0_pay19 (F := Ideal) v5 v17 v25 (ix2 r j) = Cert.Pair.damp (k0_pay18 (F := Ideal) v5 v17 v25 (ix2 r j)) := rfl

/-- The distance in Bohr. -/
theorem pay20_apply (v7 v9 v11 : FVec Ideal S2000x1 .f32) (v19 v21 v23 : FVec Ideal S2000x64 .f32)
    (r : Fin 2000) (j : Fin 64) :
    k0_pay20 (F := Ideal) v7 v9 v11 v19 v21 v23 (ix2 r j)
      = Cert.Pair.dist (((v7 (ix2 r 0) - v19 (ix2 r j)) * (v7 (ix2 r 0) - v19 (ix2 r j))
          + (v9 (ix2 r 0) - v21 (ix2 r j)) * (v9 (ix2 r 0) - v21 (ix2 r j)))
          + (v11 (ix2 r 0) - v23 (ix2 r j)) * (v11 (ix2 r 0) - v23 (ix2 r j))) := by
  unfold k0_pay20 Cert.Pair.dist
  simp only [mulf_apply, sqrt_apply, addf_apply, subf_apply, broadcast_apply, bcast_apply]
  rfl

/-- The sixth power of the distance. -/
theorem pay21_apply (v7 v9 v11 : FVec Ideal S2000x1 .f32) (v19 v21 v23 : FVec Ideal S2000x64 .f32)
    (r : Fin 2000) (j : Fin 64) :
    k0_pay21 (F := Ideal) v7 v9 v11 v19 v21 v23 (ix2 r j)
      = Cert.Pair.p6 (k0_pay20 (F := Ideal) v7 v9 v11 v19 v21 v23 (ix2 r j)) := rfl

/-- The eighth power of the distance. -/
theorem pay22_apply (v7 v9 v11 : FVec Ideal S2000x1 .f32) (v19 v21 v23 : FVec Ideal S2000x64 .f32)
    (r : Fin 2000) (j : Fin 64) :
    k0_pay22 (F := Ideal) v7 v9 v11 v19 v21 v23 (ix2 r j)
      = Cert.Pair.p8K (k0_pay20 (F := Ideal) v7 v9 v11 v19 v21 v23 (ix2 r j)) := rfl

/-- The sixth power of the damping radius. -/
theorem pay23_apply (v5 : FVec Ideal S2000x1 .f32) (v17 : FVec Ideal S2000x64 .f32) (v25 : IVec S2000x64 1)
    (r : Fin 2000) (j : Fin 64) :
    k0_pay23 (F := Ideal) v5 v17 v25 (ix2 r j) = Cert.Pair.p6 (k0_pay19 (F := Ideal) v5 v17 v25 (ix2 r j)) := rfl

/-- The eighth power of the damping radius. -/
theorem pay24_apply (v5 : FVec Ideal S2000x1 .f32) (v17 : FVec Ideal S2000x64 .f32) (v25 : IVec S2000x64 1)
    (r : Fin 2000) (j : Fin 64) :
    k0_pay24 (F := Ideal) v5 v17 v25 (ix2 r j) = Cert.Pair.p8K (k0_pay19 (F := Ideal) v5 v17 v25 (ix2 r j)) := rfl

/-- The sixth-power term of the energy. -/
theorem pay25_apply (v5 v7 v9 v11 : FVec Ideal S2000x1 .f32) (v17 v19 v21 v23 : FVec Ideal S2000x64 .f32)
    (v25 : IVec S2000x64 1) (r : Fin 2000) (j : Fin 64) :
    k0_pay25 (F := Ideal) v5 v7 v9 v11 v17 v19 v21 v23 v25 (ix2 r j)
      = Ideal.div Cert.Pair.one
          (Cert.Pair.p6 (k0_pay20 (F := Ideal) v7 v9 v11 v19 v21 v23 (ix2 r j))
            + Cert.Pair.p6 (k0_pay19 (F := Ideal) v5 v17 v25 (ix2 r j))) := rfl

/-- The s8 word, everywhere. -/
theorem pay26_apply (r : Fin 2000) (j : Fin 64) : k0_pay26 (F := Ideal) (ix2 r j) = Cert.Pair.s8 := rfl

/-! ## The row sum -/

/-- The stored column at row `r`: the sum over the 64 neighbours of the pair energies. -/
theorem pay1_apply (v42 v48 v72 v77 v80 v81 : FVec Ideal S2000x64 .f32) (r : Fin 2000) :
    k0_pay1 (F := Ideal) v42 v48 v72 v77 v80 v81 (ix2 r 0)
      = ∑ j : Fin 64, v42 (ix2 r j) * (v80 (ix2 r j)
          + Ideal.div (v81 (ix2 r j) * v48 (ix2 r j)) (v72 (ix2 r j) + v77 (ix2 r j))) := by
  unfold k0_pay1
  refine (Cert.Lib.shapeCast_a_a1_apply _ shapeCasts_S2000_S2000x1 r 0).trans ?_
  refine (Cert.Lib.multiReduction_add_rows _ 0x00000000#32 reduces_S2000x64_S2000 (.inl rfl) rfl r).trans ?_
  rfl

/-! ## The stored value at a row -/

/-- The body's stored column at row `r` is the sum over the 64 neighbours of the pair term, in the kernel's grouping,
    of the own-atom row `r` of the first block and the entries `(r, j)` of the neighbour blocks. -/
theorem stored_apply (x0 : Vec Ideal S2000x6 .f32) (x1 x2 x3 x4 x5 x6 : Vec Ideal S2000x64 .f32) (x7 : Vec Ideal S2000x64 .i32) (r : Fin 2000) :
    stored (F := Ideal) x0 x1 x2 x3 x4 x5 x6 x7 (ix2 r 0)
      = ∑ j : Fin 64, Cert.Pair.pairK (x0 (ix2 r 0)) (x0 (ix2 r 1)) (x0 (ix2 r 2)) (x0 (ix2 r 3)) (x0 (ix2 r 4)) (x0 (ix2 r 5))
          (x1 (ix2 r j)) (x2 (ix2 r j)) (x3 (ix2 r j)) (x4 (ix2 r j)) (x5 (ix2 r j)) (x6 (ix2 r j))
          (IntOp.cmpi .ne (x7 (ix2 r j)) 0#32) := by
  unfold stored
  refine (pay1_apply _ _ _ _ _ _ r).trans ?_
  refine Finset.sum_congr rfl fun j _ => ?_
  simp only [pay17_apply, pay25_apply, pay26_apply, pay22_apply, pay24_apply, pay20_apply, pay19_apply, pay18_apply,
    pay15_apply, pay16_apply, pay14_apply, pay2_eq, pay4_eq, pay5_eq, pay6_eq, pay7_eq, pay8_eq, pay9_eq, pay10_eq,
    pay11_eq, pay12_eq, pay13_eq, ld_wide]
  rw [ld_col0 x0 r, ld_col1 x0 r, ld_col2 x0 r, ld_col3 x0 r, ld_col4 x0 r, ld_col5 x0 r]
  rfl

end Cert.KernelIdeal.Hand

end
-- ==== Proof.RefRead.lean ====
/-
  The reference program read at an index. The per-pair value of the reference (its buffer %94) at (n, j) is the
  specification's pair term in the reference's grouping, of atom n's own data (the c6 and α columns of the per-atom
  table, its looked-up radius, its coordinates), the gathered data of its j-th neighbour, and the mask bit; the
  per-atom value (%95) at n is 0 + Σ over the 64 neighbours of that. The gathers are kept as opaque leaves.
  Each step reads one operation at an index; layout operations (slice, reshape, broadcast along a unit axis) only
  move the index, and the index they produce is identified coordinate by coordinate.
-/
import proofs.«106823_j18580028522577_2_alg».proof.Proof.Gen.ReferenceIdeal.Read
import proofs.«106823_j18580028522577_2_alg».proof.Proof.PairSpec
import Idealize.ShloMosaic.Lib.ValueIdx

noncomputable section

namespace Cert.ReferenceIdeal.RefValue

open Cert.ReferenceIdeal Cert.ReferenceIdeal.Read Idealize.ShloMosaic Idealize.ShloMosaic.ValueIdx

/-- The c6 column of the per-atom table, broadcast along a unit axis, read at a row. -/
theorem v4_read (x0 : (⟨S200000x2, .f32⟩ : BufTy).Contents (Elt Ideal)) (n : Fin 200000) :
    val_main_v4 (F := Ideal) x0 (ix2 n (0 : Fin 1)) = x0 (ix2 n (0 : Fin 2)) := by
  rw [val_main_v4_apply, val_main_v1_apply, val_main_v0_apply]
  exact congrArg x0 (funext fun a => Fin.ext (by match a with | ⟨0, _⟩ => exact Nat.div_one _ | ⟨1, _⟩ => rfl))

/-- The α column of the per-atom table, broadcast along a unit axis, read at a row. -/
theorem v5_read (x0 : (⟨S200000x2, .f32⟩ : BufTy).Contents (Elt Ideal)) (n : Fin 200000) :
    val_main_v5 (F := Ideal) x0 (ix2 n (0 : Fin 1)) = x0 (ix2 n (1 : Fin 2)) := by
  rw [val_main_v5_apply, val_main_v3_apply, val_main_v2_apply]
  exact congrArg x0 (funext fun a => Fin.ext (by match a with | ⟨0, _⟩ => exact Nat.div_one _ | ⟨1, _⟩ => rfl))

/-- The masked c6ij of a pair: (2·c6_i)·c6_j / max(ε, c6_i·α_j/α_i + c6_j·α_i/α_j) where the mask holds, 0 elsewhere. -/
theorem c6ij_apply (x0 : (⟨S200000x2, .f32⟩ : BufTy).Contents (Elt Ideal))
    (x4 : (⟨S200000x64, .i32⟩ : BufTy).Contents (Elt Ideal)) (x5 : (⟨S200000x64, .i1⟩ : BufTy).Contents (Elt Ideal))
    (n : Fin 200000) (j : Fin 64) :
    val_main_v34 (F := Ideal) x0 x4 x5 (ix2 n j)
      = Scalar.select (x5 (ix2 n j))
          (Ideal.div ((Cert.Pair.two * x0 (ix2 n 0)) * val_main_v12 (F := Ideal) x0 x4 (ix2 n j))
            (max Cert.Pair.eps
              (Ideal.div (x0 (ix2 n 0) * val_main_v19 (F := Ideal) x0 x4 (ix2 n j)) (x0 (ix2 n 1))
                + Ideal.div (val_main_v12 (F := Ideal) x0 x4 (ix2 n j) * x0 (ix2 n 1)) (val_main_v19 (F := Ideal) x0 x4 (ix2 n j)))))
          Cert.Pair.zero := by
  have e20 : idx_main_v20 (ix2 n j) = ix2 n (0 : Fin 1) :=
    funext fun a => Fin.ext (by match a with | ⟨0, _⟩ => rfl | ⟨1, _⟩ => rfl)
  have e22 : idx_main_v22 (ix2 n j) = ix2 n (0 : Fin 1) :=
    funext fun a => Fin.ext (by match a with | ⟨0, _⟩ => rfl | ⟨1, _⟩ => rfl)
  have e24 : idx_main_v24 (ix2 n j) = ix2 n (0 : Fin 1) :=
    funext fun a => Fin.ext (by match a with | ⟨0, _⟩ => rfl | ⟨1, _⟩ => rfl)
  have e31 : idx_main_v31 (ix2 n j) = ix2 n (0 : Fin 1) :=
    funext fun a => Fin.ext (by match a with | ⟨0, _⟩ => rfl | ⟨1, _⟩ => rfl)
  have h20 : val_main_v20 (F := Ideal) x0 (ix2 n j) = x0 (ix2 n 0) := by
    rw [val_main_v20_apply, e20, v4_read]
  have h22 : val_main_v22 (F := Ideal) x0 (ix2 n j) = x0 (ix2 n 1) := by
    rw [val_main_v22_apply, e22, v5_read]
  have h24 : val_main_v24 (F := Ideal) x0 (ix2 n j) = x0 (ix2 n 1) := by
    rw [val_main_v24_apply, e24, v5_read]
  have h31 : val_main_v31 (F := Ideal) x0 (ix2 n j) = Cert.Pair.two * x0 (ix2 n 0) := by
    rw [val_main_v31_apply, e31, val_main_v30_apply, v4_read, val_main_v29_apply, val_main_cst_3_apply]
    rfl
  rw [val_main_v34_apply, val_main_v33_apply, val_main_v32_apply, val_main_v28_apply, val_main_v27_apply,
    val_main_v23_apply, val_main_v26_apply, val_main_v21_apply, val_main_v25_apply, h20, h22, h24, h31,
    val_main_call0_v1_apply, val_main_call0_v0_apply, val_main_cst_apply,
    val_main_call1_v1_apply, val_main_call1_v0_apply, val_main_cst_4_apply]
  rfl

/-- The masked product rrij of a pair: (3·rr_i)·rr_j where the mask holds, 1 elsewhere. -/
theorem rrij_apply (x2 : (⟨S100, .f32⟩ : BufTy).Contents (Elt Ideal)) (x3 : (⟨S200000, .i32⟩ : BufTy).Contents (Elt Ideal))
    (x4 : (⟨S200000x64, .i32⟩ : BufTy).Contents (Elt Ideal)) (x5 : (⟨S200000x64, .i1⟩ : BufTy).Contents (Elt Ideal))
    (n : Fin 200000) (j : Fin 64) :
    val_main_v54 (F := Ideal) x2 x3 x4 x5 (ix2 n j)
      = Scalar.select (x5 (ix2 n j))
          ((Cert.Pair.three * val_main_v41 (F := Ideal) x2 x3 (ix1 n)) * val_main_v51 (F := Ideal) x2 x3 x4 (ix2 n j))
          Cert.Pair.one := by
  have e52 : idx_main_v52 (ix2 n j) = ix2 n (0 : Fin 1) :=
    funext fun a => Fin.ext (by match a with | ⟨0, _⟩ => rfl | ⟨1, _⟩ => rfl)
  have e42 : idx_main_v42 (ix2 n (0 : Fin 1)) = ix1 n :=
    funext fun a => Fin.ext (by match a with | ⟨0, _⟩ => rfl)
  have h52 : val_main_v52 (F := Ideal) x2 x3 (ix2 n j) = Cert.Pair.three * val_main_v41 (F := Ideal) x2 x3 (ix1 n) := by
    rw [val_main_v52_apply, e52, val_main_v44_apply, val_main_v42_apply, e42, val_main_v43_apply, val_main_cst_7_apply]
    rfl
  rw [val_main_v54_apply, val_main_v53_apply, h52, val_main_call2_v1_apply, val_main_call2_v0_apply, val_main_cst_10_apply]
  rfl

/-- The squared distance of a pair: 0 + Σ over the three axes of (x_i − x_j)². -/
theorem dd_apply (x1 : (⟨S200000x3, .f32⟩ : BufTy).Contents (Elt Ideal)) (x4 : (⟨S200000x64, .i32⟩ : BufTy).Contents (Elt Ideal))
    (n : Fin 200000) (j : Fin 64) :
    val_main_v71 (F := Ideal) x1 x4 (ix2 n j)
      = Cert.Pair.zero + ∑ k : Fin 3,
          (x1 (ix2 n k) - val_main_v67 (F := Ideal) x1 x4 (ix3 n j k)) * (x1 (ix2 n k) - val_main_v67 (F := Ideal) x1 x4 (ix3 n j k)) := by
  have hidx : ∀ k : Fin 3, idx_main_v71 (ix2 n j) k = ix3 n j k := fun k =>
    funext fun a => Fin.ext (by match a with | ⟨0, _⟩ => rfl | ⟨1, _⟩ => rfl | ⟨2, _⟩ => rfl)
  have h68 : ∀ k : Fin 3, val_main_v68 (F := Ideal) x1 (ix3 n j k) = x1 (ix2 n k) := fun k => by
    rw [val_main_v68_apply, val_main_v60_apply]
    exact congrArg x1 (funext fun a => Fin.ext (by match a with | ⟨0, _⟩ => rfl | ⟨1, _⟩ => rfl))
  rw [val_main_v71_apply]
  simp only [hidx, val_main_v70_apply, val_main_v69_apply, h68]
  rfl

/-- The reference's pair term at (n, j) is the specification's pair term of the two atoms' data. -/
theorem pair_apply (x0 : (⟨S200000x2, .f32⟩ : BufTy).Contents (Elt Ideal)) (x1 : (⟨S200000x3, .f32⟩ : BufTy).Contents (Elt Ideal))
    (x2 : (⟨S100, .f32⟩ : BufTy).Contents (Elt Ideal)) (x3 : (⟨S200000, .i32⟩ : BufTy).Contents (Elt Ideal))
    (x4 : (⟨S200000x64, .i32⟩ : BufTy).Contents (Elt Ideal)) (x5 : (⟨S200000x64, .i1⟩ : BufTy).Contents (Elt Ideal))
    (n : Fin 200000) (j : Fin 64) :
    val_main_v94 (F := Ideal) x0 x1 x2 x3 x4 x5 (ix2 n j)
      = Cert.Pair.pairR (x0 (ix2 n 0)) (x0 (ix2 n 1)) (val_main_v41 (F := Ideal) x2 x3 (ix1 n)) (fun k => x1 (ix2 n k))
          (val_main_v12 (F := Ideal) x0 x4 (ix2 n j)) (val_main_v19 (F := Ideal) x0 x4 (ix2 n j)) (val_main_v51 (F := Ideal) x2 x3 x4 (ix2 n j))
          (fun k => val_main_v67 (F := Ideal) x1 x4 (ix3 n j k)) (x5 (ix2 n j)) := by
  rw [val_main_v94_apply, val_main_v93_apply, val_main_v85_apply, val_main_v92_apply, val_main_v83_apply, val_main_v91_apply,
    val_main_v87_apply, val_main_v90_apply, val_main_v89_apply, val_main_v88_apply,
    val_main_v82_apply, val_main_v81_apply, val_main_v80_apply,
    val_main_v79_apply, val_main_v78_apply, val_main_v77_apply, val_main_v76_apply, val_main_v75_apply, val_main_v74_apply,
    val_main_v72_apply, val_main_v59_apply, val_main_v57_apply, val_main_v55_apply,
    val_main_v84_apply, val_main_cst_17_apply, val_main_v86_apply, val_main_cst_18_apply,
    val_main_v73_apply, val_main_cst_16_apply, val_main_v56_apply, val_main_cst_11_apply,
    val_main_v58_apply, val_main_cst_12_apply,
    c6ij_apply, rrij_apply, dd_apply]
  rfl

/-- The reference's per-atom energy at n is 0 + Σ over the 64 neighbours of the pair term. -/
theorem atom_apply (x0 : (⟨S200000x2, .f32⟩ : BufTy).Contents (Elt Ideal)) (x1 : (⟨S200000x3, .f32⟩ : BufTy).Contents (Elt Ideal))
    (x2 : (⟨S100, .f32⟩ : BufTy).Contents (Elt Ideal)) (x3 : (⟨S200000, .i32⟩ : BufTy).Contents (Elt Ideal))
    (x4 : (⟨S200000x64, .i32⟩ : BufTy).Contents (Elt Ideal)) (x5 : (⟨S200000x64, .i1⟩ : BufTy).Contents (Elt Ideal))
    (n : Fin 200000) :
    val_main_v95 (F := Ideal) x0 x1 x2 x3 x4 x5 (ix1 n)
      = Cert.Pair.zero + ∑ j : Fin 64, val_main_v94 (F := Ideal) x0 x1 x2 x3 x4 x5 (ix2 n j) := by
  rw [val_main_v95_apply]
  have hidx : ∀ k : Fin 64, idx_main_v95 (ix1 n) k = ix2 n k := fun k =>
    funext fun a => Fin.ext (by match a with | ⟨0, _⟩ => rfl | ⟨1, _⟩ => rfl)
  simp only [hidx]
  rfl

end Cert.ReferenceIdeal.RefValue

end
-- ==== Proof.ValueKI.lean ====
/-
  The idealized kernel's result, as a function of the argument arrays, and that it is the reference's.

  The region writes one column of per-atom energies, block by block: point t stores rows 2000·t … 2000·t + 1999, and the
  hundred blocks tile the 200000 rows, so after the run entry (n, 0) of the column is the stored value of the block
  n / 2000 at row n mod 2000 — the sum over the 64 neighbours j of the pair term of atom n and neighbour j, read off
  the arrays the region was entered with. Those arrays are the host lines' functions of the arguments, so the pair term
  is the reference's pair term (the law of the pair energy: only commutativity and associativity of + and ·, and max's
  commutativity, are used — nothing about finiteness), the column read as a vector is the reference's vector of
  per-atom energies, and the two programs end with the same lines: the segment sum over the molecule indices and the
  scaling.
-/
import proofs.«106823_j18580028522577_2_alg».proof.Proof.RunKI
import proofs.«106823_j18580028522577_2_alg».proof.Proof.EntryKI
import proofs.«106823_j18580028522577_2_alg».proof.Proof.StoredRead
import proofs.«106823_j18580028522577_2_alg».proof.Proof.RefRead
import proofs.«106823_j18580028522577_2_alg».proof.Proof.PairSpec
import proofs.«106823_j18580028522577_2_alg».proof.Proof.LibColumnBack
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem
open Idealize.ShloMosaic.Pipeline (Dat)

variable (m : (ℓ : Loc nD τ sig) → Buf (Elt Ideal) ℓ) (ρ : Dev nD → PrngReg)

/-! ## The blocks -/

/-- Every window's block index at grid point t is (t, 0): the blocks are consecutive row blocks. -/
theorem idx_0 : ∀ t : Fin cfg0.N, win0_0.index t = ![t.val, 0] :=
  (by decide +kernel : ∀ t : Fin grid0.N, win0_0.index t = ![t.val, 0])
theorem idx_1 : ∀ t : Fin cfg0.N, win0_1.index t = ![t.val, 0] :=
  (by decide +kernel : ∀ t : Fin grid0.N, win0_1.index t = ![t.val, 0])
theorem idx_2 : ∀ t : Fin cfg0.N, win0_2.index t = ![t.val, 0] :=
  (by decide +kernel : ∀ t : Fin grid0.N, win0_2.index t = ![t.val, 0])
theorem idx_3 : ∀ t : Fin cfg0.N, win0_3.index t = ![t.val, 0] :=
  (by decide +kernel : ∀ t : Fin grid0.N, win0_3.index t = ![t.val, 0])
theorem idx_4 : ∀ t : Fin cfg0.N, win0_4.index t = ![t.val, 0] :=
  (by decide +kernel : ∀ t : Fin grid0.N, win0_4.index t = ![t.val, 0])
theorem idx_5 : ∀ t : Fin cfg0.N, win0_5.index t = ![t.val, 0] :=
  (by decide +kernel : ∀ t : Fin grid0.N, win0_5.index t = ![t.val, 0])
theorem idx_6 : ∀ t : Fin cfg0.N, win0_6.index t = ![t.val, 0] :=
  (by decide +kernel : ∀ t : Fin grid0.N, win0_6.index t = ![t.val, 0])
theorem idx_7 : ∀ t : Fin cfg0.N, win0_7.index t = ![t.val, 0] :=
  (by decide +kernel : ∀ t : Fin grid0.N, win0_7.index t = ![t.val, 0])
theorem idx_8 : ∀ t : Fin cfg0.N, win0_8.index t = ![t.val, 0] :=
  (by decide +kernel : ∀ t : Fin grid0.N, win0_8.index t = ![t.val, 0])

/-- Row r of block t is row 2000·t + r of the array. -/
def rowAt (t : Fin cfg0.N) (r : Fin 2000) : Fin 200000 :=
  ⟨t.val * 2000 + r.val, by have ht : t.val < 100 := lt_of_lt_of_eq t.isLt N_0; have := r.isLt; omega⟩

/-- Entry (r, k) of window 0's block at point t is entry (2000·t + r, k) of its array. -/
theorem iblk0_apply (c : Dev nD) (t : Fin cfg0.N) (r : Fin 2000) (k : Fin 6) :
    iblk m c 0 t (ix2 r k) = V m c main_v71 (ix2 (rowAt t r) k) := by
  show V m c main_v71 (((cfg0.win 0).blk t).view.emb (ix2 r k)) = _
  refine congrArg (V m c main_v71) (funext fun a => Fin.ext ?_)
  match a with
  | ⟨0, _⟩ =>
    show win0_0.index t (0 : Fin 2) * 2000 + 1 * r.val = t.val * 2000 + r.val
    rw [show win0_0.index t (0 : Fin 2) = t.val from congrFun (idx_0 t) 0]; omega
  | ⟨1, _⟩ =>
    show win0_0.index t (1 : Fin 2) * 6 + 1 * k.val = k.val
    rw [show win0_0.index t (1 : Fin 2) = 0 from congrFun (idx_0 t) 1]; omega

/-- Entry (r, k) of window 1's block at point t is entry (2000·t + r, k) of its array. -/
theorem iblk1_apply (c : Dev nD) (t : Fin cfg0.N) (r : Fin 2000) (k : Fin 64) :
    iblk m c 1 t (ix2 r k) = V m c main_v17 (ix2 (rowAt t r) k) := by
  show V m c main_v17 (((cfg0.win 1).blk t).view.emb (ix2 r k)) = _
  refine congrArg (V m c main_v17) (funext fun a => Fin.ext ?_)
  match a with
  | ⟨0, _⟩ =>
    show win0_1.index t (0 : Fin 2) * 2000 + 1 * r.val = t.val * 2000 + r.val
    rw [show win0_1.index t (0 : Fin 2) = t.val from congrFun (idx_1 t) 0]; omega
  | ⟨1, _⟩ =>
    show win0_1.index t (1 : Fin 2) * 64 + 1 * k.val = k.val
    rw [show win0_1.index t (1 : Fin 2) = 0 from congrFun (idx_1 t) 1]; omega

/-- Entry (r, k) of window 2's block at point t is entry (2000·t + r, k) of its array. -/
theorem iblk2_apply (c : Dev nD) (t : Fin cfg0.N) (r : Fin 2000) (k : Fin 64) :
    iblk m c 2 t (ix2 r k) = V m c main_v24 (ix2 (rowAt t r) k) := by
  show V m c main_v24 (((cfg0.win 2).blk t).view.emb (ix2 r k)) = _
  refine congrArg (V m c main_v24) (funext fun a => Fin.ext ?_)
  match a with
  | ⟨0, _⟩ =>
    show win0_2.index t (0 : Fin 2) * 2000 + 1 * r.val = t.val * 2000 + r.val
    rw [show win0_2.index t (0 : Fin 2) = t.val from congrFun (idx_2 t) 0]; omega
  | ⟨1, _⟩ =>
    show win0_2.index t (1 : Fin 2) * 64 + 1 * k.val = k.val
    rw [show win0_2.index t (1 : Fin 2) = 0 from congrFun (idx_2 t) 1]; omega

/-- Entry (r, k) of window 3's block at point t is entry (2000·t + r, k) of its array. -/
theorem iblk3_apply (c : Dev nD) (t : Fin cfg0.N) (r : Fin 2000) (k : Fin 64) :
    iblk m c 3 t (ix2 r k) = V m c main_v31 (ix2 (rowAt t r) k) := by
  show V m c main_v31 (((cfg0.win 3).blk t).view.emb (ix2 r k)) = _
  refine congrArg (V m c main_v31) (funext fun a => Fin.ext ?_)
  match a with
  | ⟨0, _⟩ =>
    show win0_3.index t (0 : Fin 2) * 2000 + 1 * r.val = t.val * 2000 + r.val
    rw [show win0_3.index t (0 : Fin 2) = t.val from congrFun (idx_3 t) 0]; omega
  | ⟨1, _⟩ =>
    show win0_3.index t (1 : Fin 2) * 64 + 1 * k.val = k.val
    rw [show win0_3.index t (1 : Fin 2) = 0 from congrFun (idx_3 t) 1]; omega

/-- Entry (r, k) of window 4's block at point t is entry (2000·t + r, k) of its array. -/
theorem iblk4_apply (c : Dev nD) (t : Fin cfg0.N) (r : Fin 2000) (k : Fin 64) :
    iblk m c 4 t (ix2 r k) = V m c main_v40 (ix2 (rowAt t r) k) := by
  show V m c main_v40 (((cfg0.win 4).blk t).view.emb (ix2 r k)) = _
  refine congrArg (V m c main_v40) (funext fun a => Fin.ext ?_)
  match a with
  | ⟨0, _⟩ =>
    show win0_4.index t (0 : Fin 2) * 2000 + 1 * r.val = t.val * 2000 + r.val
    rw [show win0_4.index t (0 : Fin 2) = t.val from congrFun (idx_4 t) 0]; omega
  | ⟨1, _⟩ =>
    show win0_4.index t (1 : Fin 2) * 64 + 1 * k.val = k.val
    rw [show win0_4.index t (1 : Fin 2) = 0 from congrFun (idx_4 t) 1]; omega

/-- Entry (r, k) of window 5's block at point t is entry (2000·t + r, k) of its array. -/
theorem iblk5_apply (c : Dev nD) (t : Fin cfg0.N) (r : Fin 2000) (k : Fin 64) :
    iblk m c 5 t (ix2 r k) = V m c main_v49 (ix2 (rowAt t r) k) := by
  show V m c main_v49 (((cfg0.win 5).blk t).view.emb (ix2 r k)) = _
  refine congrArg (V m c main_v49) (funext fun a => Fin.ext ?_)
  match a with
  | ⟨0, _⟩ =>
    show win0_5.index t (0 : Fin 2) * 2000 + 1 * r.val = t.val * 2000 + r.val
    rw [show win0_5.index t (0 : Fin 2) = t.val from congrFun (idx_5 t) 0]; omega
  | ⟨1, _⟩ =>
    show win0_5.index t (1 : Fin 2) * 64 + 1 * k.val = k.val
    rw [show win0_5.index t (1 : Fin 2) = 0 from congrFun (idx_5 t) 1]; omega

/-- Entry (r, k) of window 6's block at point t is entry (2000·t + r, k) of its array. -/
theorem iblk6_apply (c : Dev nD) (t : Fin cfg0.N) (r : Fin 2000) (k : Fin 64) :
    iblk m c 6 t (ix2 r k) = V m c main_v58 (ix2 (rowAt t r) k) := by
  show V m c main_v58 (((cfg0.win 6).blk t).view.emb (ix2 r k)) = _
  refine congrArg (V m c main_v58) (funext fun a => Fin.ext ?_)
  match a with
  | ⟨0, _⟩ =>
    show win0_6.index t (0 : Fin 2) * 2000 + 1 * r.val = t.val * 2000 + r.val
    rw [show win0_6.index t (0 : Fin 2) = t.val from congrFun (idx_6 t) 0]; omega
  | ⟨1, _⟩ =>
    show win0_6.index t (1 : Fin 2) * 64 + 1 * k.val = k.val
    rw [show win0_6.index t (1 : Fin 2) = 0 from congrFun (idx_6 t) 1]; omega

/-- Entry (r, k) of window 7's block at point t is entry (2000·t + r, k) of its array. -/
theorem iblk7_apply (c : Dev nD) (t : Fin cfg0.N) (r : Fin 2000) (k : Fin 64) :
    iblk m c 7 t (ix2 r k) = V m c main_v72 (ix2 (rowAt t r) k) := by
  show V m c main_v72 (((cfg0.win 7).blk t).view.emb (ix2 r k)) = _
  refine congrArg (V m c main_v72) (funext fun a => Fin.ext ?_)
  match a with
  | ⟨0, _⟩ =>
    show win0_7.index t (0 : Fin 2) * 2000 + 1 * r.val = t.val * 2000 + r.val
    rw [show win0_7.index t (0 : Fin 2) = t.val from congrFun (idx_7 t) 0]; omega
  | ⟨1, _⟩ =>
    show win0_7.index t (1 : Fin 2) * 64 + 1 * k.val = k.val
    rw [show win0_7.index t (1 : Fin 2) = 0 from congrFun (idx_7 t) 1]; omega

/-! ## The result column -/

/-- The energy of atom n: the sum over its 64 neighbours of the pair term, read off the arrays the region is entered with. -/
def atomE (c : Dev nD) (n : Fin 200000) : EReal :=
  ∑ j : Fin 64, Cert.Pair.pairK (V m c main_v71 (ix2 n (0 : Fin 6))) (V m c main_v71 (ix2 n (1 : Fin 6))) (V m c main_v71 (ix2 n (2 : Fin 6)))
      (V m c main_v71 (ix2 n (3 : Fin 6))) (V m c main_v71 (ix2 n (4 : Fin 6))) (V m c main_v71 (ix2 n (5 : Fin 6)))
      (V m c main_v17 (ix2 n j)) (V m c main_v24 (ix2 n j)) (V m c main_v31 (ix2 n j))
      (V m c main_v40 (ix2 n j)) (V m c main_v49 (ix2 n j)) (V m c main_v58 (ix2 n j))
      (IntOp.cmpi .ne (V m c main_v72 (ix2 n j)) 0#32)

/-- The row of an index of the column. -/
def rowOf (i : S200000x1.Idx) : Fin 200000 := ⟨(i 0).val, idx2_lt0 i⟩

/-- The column of per-atom energies. -/
def colE (c : Dev nD) : S200000x1.Idx → EReal := fun i => atomE m c (rowOf i)

theorem hz : (![0, 0] : Fin 2 → Nat) = fun _ => 0 := funext fun a => by fin_cases a <;> rfl

/-- The array row of row r of the output's block t. -/
theorem rowOf_emb (t : Fin cfg0.N) (r : Fin 2000) :
    rowOf (((cfg0.win 8).blk t).view.emb (ix2 r (0 : Fin 1))) = rowAt t r := by
  refine Fin.ext ?_
  show win0_8.index t (0 : Fin 2) * 2000 + 1 * r.val = t.val * 2000 + r.val
  rw [show win0_8.index t (0 : Fin 2) = t.val from congrFun (idx_8 t) 0]; omega

/-- WHAT POINT t WRITES BACK is block t of the column of per-atom energies. -/
theorem flushed_eq (c : Dev nD) (t : Fin cfg0.N) :
    (dats m 0 c).flushed 8 t = ((cfg0.win 8).blk t).view.read (Elt Ideal) (colE m c) := by
  show (cfg0.win 8).cut (grid0.coords t) ((dats m 0 c).after 8 t) = _
  rw [after_8]
  unfold outCol
  rw [View.canon_unit_zero hz]
  funext y
  obtain ⟨r, u, rfl⟩ : ∃ (r : Fin 2000) (u : Fin 1), y = ix2 r u := ⟨y 0, y 1, eq_ix2 y⟩
  obtain rfl : u = 0 := Subsingleton.elim _ _
  show stored (F := Ideal) (iblk m c 0 t) (iblk m c 1 t) (iblk m c 2 t) (iblk m c 3 t) (iblk m c 4 t) (iblk m c 5 t) (iblk m c 6 t) (iblk m c 7 t) (ix2 r (0 : Fin 1))
    = atomE m c (rowOf (((cfg0.win 8).blk t).view.emb (ix2 r (0 : Fin 1))))
  rw [stored_apply, rowOf_emb]
  unfold atomE
  refine Finset.sum_congr rfl fun j _ => ?_
  rw [iblk0_apply, iblk0_apply, iblk0_apply, iblk0_apply, iblk0_apply, iblk0_apply,
    iblk1_apply, iblk2_apply, iblk3_apply, iblk4_apply, iblk5_apply, iblk6_apply, iblk7_apply]

/-- An index of the column is in point t's block iff each coordinate is in the block's range. -/
theorem mem_blk (t : Fin cfg0.N) (i : S200000x1.Idx) :
    i ∈ ((cfg0.win 8).blk t).view.set ↔ ∀ a : Fin 2, win0_8.index t a * S2000x1.size a ≤ (i a).val ∧ (i a).val < win0_8.index t a * S2000x1.size a + S2000x1.size a := by
  show i ∈ ((View.whole main_v73).slice (win0_8.rect t)).set ↔ _
  rw [View.set_slice_whole, Rect.mem_set_unit]
  exact Iff.rfl

/-- The hundred blocks tile the column: row n is in block n / 2000. -/
theorem cover (i : S200000x1.Idx) :
    ∃ t : Fin cfg0.N, (cfg0.win 8).flush t = true ∧ i ∈ ((cfg0.win 8).blk t).view.set := by
  have hi0 : (i 0).val < 200000 := (i 0).isLt
  have hi1 : (i 1).val < 1 := (i 1).isLt
  have hq : (i 0).val / 2000 < cfg0.N := by rw [show cfg0.N = 100 from N_0]; omega
  refine ⟨⟨(i 0).val / 2000, hq⟩, flush0_8 _, ?_⟩
  rw [mem_blk]
  intro a
  match a with
  | ⟨0, _⟩ =>
    show win0_8.index ⟨(i 0).val / 2000, hq⟩ (0 : Fin 2) * 2000 ≤ (i 0).val ∧ (i 0).val < win0_8.index ⟨(i 0).val / 2000, hq⟩ (0 : Fin 2) * 2000 + 2000
    rw [show win0_8.index ⟨(i 0).val / 2000, hq⟩ (0 : Fin 2) = (i 0).val / 2000 from congrFun (idx_8 ⟨(i 0).val / 2000, hq⟩) 0]; omega
  | ⟨1, _⟩ =>
    show win0_8.index ⟨(i 0).val / 2000, hq⟩ (1 : Fin 2) * 1 ≤ (i 1).val ∧ (i 1).val < win0_8.index ⟨(i 0).val / 2000, hq⟩ (1 : Fin 2) * 1 + 1
    rw [show win0_8.index ⟨(i 0).val / 2000, hq⟩ (1 : Fin 2) = 0 from congrFun (idx_8 ⟨(i 0).val / 2000, hq⟩) 1]; omega

/-- THE RESULT ARRAY OF THE REGION after the run: the column of per-atom energies. -/
theorem final (c : Dev nD) : (dats m 0 c).arrAt 8 cfg0.N = colE m c :=
  (dats m 0 c).arrAt_eq_of_cover 8 (colE m c) (fun t _ => flushed_eq m c t) cover

/-! ## The per-atom energies are the reference's -/

/-- A mask bit widened to a word is nonzero exactly when the bit is set. -/
theorem mask_word (b : BitVec 1) : IntOp.cmpi .ne (b.setWidth 32) 0#32 = b := by
  rcases BitVec.eq_zero_or_eq_one b with h | h <;> subst h <;> decide

/-- r4r2 of atom n's element, laid as a column, read at (n, 0). -/
theorem v42_read (x2 : (⟨Cert.ReferenceIdeal.S100, .f32⟩ : BufTy).Contents (Elt Ideal)) (x3 : (⟨Cert.ReferenceIdeal.S200000, .i32⟩ : BufTy).Contents (Elt Ideal)) (n : Fin 200000) :
    Cert.ReferenceIdeal.Read.val_main_v42 (F := Ideal) x2 x3 (ix2 n (0 : Fin 1)) = Cert.ReferenceIdeal.Read.val_main_v41 (F := Ideal) x2 x3 (ix1 n) := by
  rw [Cert.ReferenceIdeal.Read.val_main_v42_apply]
  exact congrArg _ (funext fun a => Fin.ext (by match a with | ⟨0, _⟩ => rfl))

/-- Atom n's energy as the kernel computes it is the reference's entry n. -/
theorem atomE_eq (c : Dev nD) (n : Fin 200000) :
    atomE m c n = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix1 n) := by
  rw [Cert.ReferenceIdeal.RefValue.atom_apply, Cert.Pair.zero_eq, zero_add]
  unfold atomE
  refine Finset.sum_congr rfl fun j _ => ?_
  rw [Cert.ReferenceIdeal.RefValue.pair_apply, Cert.Pair.pairR_eq_pairK]
  rw [entry_own0_piece, entry_own1_piece, entry_own2_piece, entry_own3_piece, entry_own4_piece, entry_own5_piece,
    entry_c6j, entry_alj, entry_rrj, entry_coord0, entry_coord1, entry_coord2, entry_mask,
    Cert.ReferenceIdeal.RefValue.v4_read, Cert.ReferenceIdeal.RefValue.v5_read, v42_read,
    colAsColumn_apply, colAsColumn_apply, colAsColumn_apply, extui_apply, mask_word]

/-! ## The result -/

/-- The column read as a vector is the reference's vector of per-atom energies. -/
theorem colE_vec (c : Dev nD) :
    shapeCast S200000 (colE m c) shapeCasts_S200000x1_S200000
      = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, rfl⟩ : ∃ n : Fin 200000, i = ix1 n := ⟨i 0, eq_ix1 i⟩
  rw [Cert.Lib.shapeCast_a1_a_apply]
  exact atomE_eq m c n

set_option maxHeartbeats 1000000 in
/-- THE RESULT of the idealized kernel's program is the reference's result term of the same arguments. -/
theorem result_eq (c : Dev nD) :
    Pipeline.afterTail₀ cfgs (dats m) 0 (V0 m) [hostOps1] c main_v79
      = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h73 : Pipeline.withArrays spec0 c (V0 m c) (fun w => (dats m 0 c).arrAt w cfg0.N) (Proc.devRef .tc main_v73) = colE m c :=
    (Pipeline.withArrays_arr spec0 launch0.win.arr_inj c (V0 m c) (fun w => (dats m 0 c).arrAt w cfg0.N) 8).trans (final m c)
  have h6 : Pipeline.withArrays spec0 c (V0 m c) (fun w => (dats m 0 c).arrAt w cfg0.N) (Proc.devRef .tc main_arg6) = (m ((c : Thread nD τ).loc main_arg6)) :=
    (Pipeline.withArrays_of_ne spec0 c (V0 m c) _ main_arg6 (by exact (by decide : ∀ w, Pipeline.arrRef spec0 w ≠ main_arg6))).trans (V_main_arg6 m c)
  unfold Pipeline.afterTail₀
  show StableHlo.after hostOps1 (Pipeline.withArrays spec0 c (V0 m c) (fun w => (dats m 0 c).arrAt w cfg0.N)) (Proc.devRef .tc main_v79) = _
  generalize Pipeline.withArrays spec0 c (V0 m c) (fun w => (dats m 0 c).arrAt w cfg0.N) = F at h73 h6 ⊢
  after_results_simp
  rw [h73, h6]
  have hv := colE_vec m c
  generalize colE m c = E at hv ⊢
  have hd : scatter_S2000_S200000x1_S200000_n_0_0_1 = Cert.ReferenceIdeal.scatter_S2000_S200000x1_S200000_n_0_0_1 := rfl
  unfold Cert.ReferenceIdeal.Read.val_main_v100 Cert.ReferenceIdeal.Read.val_main_v98
  generalize Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = W at hv ⊢
  subst hv
  rw [hd]
  unfold Cert.ReferenceIdeal.Read.val_main_v99 Cert.ReferenceIdeal.Read.val_main_v97 Cert.ReferenceIdeal.Read.val_main_v96
    Cert.ReferenceIdeal.Read.val_main_cst_21 Cert.ReferenceIdeal.Read.val_main_cst_20
  rfl

/-! ## The run, read -/

/-- Every weakly fair execution of the idealized kernel's program terminates with its result at the reference's result
    term of the arguments, and the arguments as launched. -/
theorem run_value : θ_run defs (onTc (τ := τ) (main (F := Ideal))) ⟨m, fun _ => 0, ρ⟩ (fun r => ∀ c : Dev nD,
      r.2.mem ((c.tc : Thread nD τ).loc main_v79)
        = Cert.ReferenceIdeal.Read.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v79 (Pipeline.mem_restRefs_of main_v79 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.lean ====
/-
  A D3(BJ)-style dispersion energy: per atom, a sum over 64 neighbours of a pair term; per molecule, the sum of its atoms'
  energies, scaled. The kernel gathers the six per-atom quantities at the neighbour matrix on the host, computes the
  pair terms and the per-atom sums block by block in one region over 100 blocks of 2000 atoms, and adds the atoms into
  their molecules on the host; the reference does all of it on the host.

  What is proved, and where:
    • the three programs run to the end, fault nowhere and leave their seven argument arrays as launched — for the two
      kernel programs this is the run of the region between its two stretches of host lines (Proof/RunK.lean at the
      word-level instance, Proof/RunKI.lean at the extended reals; the body's one stored value is Proof/StoredK.lean /
      Proof/StoredKI.lean), for the reference it is its run with the result dropped;
    • nothing was rewritten when the kernel was read at the extended reals, so there is nothing to preserve;
    • on the extended reals the two programs end with equal results: the region's result column is, entry by entry,
      the sum over the neighbours of the pair term read off the arrays the region is entered with
      (Proof/StoredRead.lean, Proof/ValueKI.lean); those arrays are the host lines' functions of the arguments
      (Proof/EntryKI.lean, with Proof/LibGatherRowsAt.lean: a coordinate column looked up at the neighbours is that column
      of the coordinate rows looked up there); the pair term is the reference's (Proof/RefRead.lean) by the law of
      Proof/PairSpec.lean — max is commutative, 0 is neutral for +, · is associative: no distributive law, hence no use of the
      inputs' finiteness; and both programs end with the same segment sum and scaling of equal vectors.
-/
import proofs.«106823_j18580028522577_2_alg».proof.Defs
import proofs.«106823_j18580028522577_2_alg».proof.Proof.Gen.Kernel
import proofs.«106823_j18580028522577_2_alg».proof.Proof.Gen.KernelIdeal
import proofs.«106823_j18580028522577_2_alg».proof.Proof.Gen.ReferenceIdeal
import proofs.«106823_j18580028522577_2_alg».proof.Proof.Gen.Pre_finite_inputs
import proofs.«106823_j18580028522577_2_alg».proof.Proof.Gen.ReferenceIdeal.Run
import proofs.«106823_j18580028522577_2_alg».proof.Proof.Gen.ReferenceIdeal.Read
import proofs.«106823_j18580028522577_2_alg».proof.Proof.RunK
import proofs.«106823_j18580028522577_2_alg».proof.Proof.RunKI
import proofs.«106823_j18580028522577_2_alg».proof.Proof.ValueKI
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame m ρ

/-- The idealized kernel program runs and keeps its arguments. -/
theorem frame_ki : Cert.frame_KernelIdeal := fun m ρ _ => Cert.KernelIdeal.Hand.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals, from memories agreeing on the arguments, the two programs end with equal results: the
    kernel's is the reference's result term of the kernel's arguments, and the reference's arguments are those. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
